-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_v18) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S512x512 : Shape := ⟨2, ![512, 512]⟩
abbrev S512 : Shape := ⟨1, ![512]⟩
abbrev S1024x512 : Shape := ⟨2, ![1024, 512]⟩
abbrev S1024 : Shape := ⟨1, ![1024]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x512 1) : IVec S_ 1 :=
  let main_c_5 : IVec S_ 1 := constantI S_ 1 1#1
  let main_v17 : IVec S_ 1 := (fun x v => Host.reduce IntOp.andi x v reducesTo_S1024x512_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S65536x512 .f32) (main_arg1 : FVec F S512x512 .f32) (main_arg2 : FVec F S512 .f32) (main_arg3 : FVec F S1024x512 .f32) (main_arg4 : FVec F S1024 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S1024x512 .f32 := Host.absf main_arg3
  let main_cst_4 : FVec F S_ .f32 := constant S_ .f32 0x7F800000#32
  let main_v15 : FVec F S1024x512 .f32 := broadcastInDim S1024x512 ![] bcast_S_S1024x512 main_cst_4
  let main_v16 : IVec S1024x512 1 := cmpf .olt main_v14 main_v15
  fn_part1 (F := F) main_arg4 main_v13 main_v16
-- ==== Kernel.lean ====
abbrev S65536x512 : Shape := ⟨2, ![65536, 512]⟩
abbrev S512x512 : Shape := ⟨2, ![512, 512]⟩
abbrev S512 : Shape := ⟨1, ![512]⟩
abbrev S1024x512 : Shape := ⟨2, ![1024, 512]⟩
abbrev S1024 : Shape := ⟨1, ![1024]⟩
abbrev S1536x512 : Shape := ⟨2, ![1536, 512]⟩
abbrev S512x1536 : Shape := ⟨2, ![512, 1536]⟩
abbrev S1536 : Shape := ⟨1, ![1536]⟩
abbrev S8x32768x128 : Shape := ⟨3, ![8, 32768, 128]⟩
abbrev S2048x512 : Shape := ⟨2, ![2048, 512]⟩
abbrev S8x1024x128 : Shape := ⟨3, ![8, 1024, 128]⟩
abbrev S2048x1536 : Shape := ⟨2, ![2048, 1536]⟩
abbrev S1x1536 : Shape := ⟨2, ![1, 1536]⟩
abbrev S2048x64 : Shape := ⟨2, ![2048, 64]⟩
abbrev S1024x128 : Shape := ⟨2, ![1024, 128]⟩
abbrev S1x1024x128 : Shape := ⟨3, ![1, 1024, 128]⟩
abbrev S8x65536x64 : Shape := ⟨3, ![8, 65536, 64]⟩

abbrev nBuf : Space → Nat
  | .hbm => 15
  | .vmem => 10
  | .smem => 0
  | _ => 0

abbrev bufTy : (tb : Table) → Fin (tcTables nBuf tb) → BufTy
  | .hbm, ⟨0, _⟩ => ⟨S65536x512, .f32⟩
  | .hbm, ⟨1, _⟩ => ⟨S512x512, .f32⟩
  | .hbm, ⟨2, _⟩ => ⟨S512, .f32⟩
  | .hbm, ⟨3, _⟩ => ⟨S1024x512, .f32⟩
  | .hbm, ⟨4, _⟩ => ⟨S1024, .f32⟩
  | .hbm, ⟨5, _⟩ => ⟨S1536x512, .f32⟩
  | .hbm, ⟨6, _⟩ => ⟨S512x1536, .f32⟩
  | .hbm, ⟨7, _⟩ => ⟨S512x1536, .bf16⟩
  | .hbm, ⟨8, _⟩ => ⟨S1536, .f32⟩
  | .hbm, ⟨9, _⟩ => ⟨S8x32768x128, .f32⟩
  | .hbm, ⟨10, _⟩ => ⟨S8x32768x128, .f32⟩
  | .hbm, ⟨11, _⟩ => ⟨S8x32768x128, .f32⟩
  | .hbm, ⟨12, _⟩ => ⟨S8x65536x64, .f32⟩
  | .hbm, ⟨13, _⟩ => ⟨S8x65536x64, .f32⟩
  | .hbm, ⟨14, _⟩ => ⟨S8x65536x64, .f32⟩
  | .local _ .vmem, ⟨0, _⟩ => ⟨S2048x512, .f32⟩
  | .local _ .vmem, ⟨1, _⟩ => ⟨S2048x512, .f32⟩
  | .local _ .vmem, ⟨2, _⟩ => ⟨S512x1536, .bf16⟩
  | .local _ .vmem, ⟨3, _⟩ => ⟨S1536, .f32⟩
  | .local _ .vmem, ⟨4, _⟩ => ⟨S8x1024x128, .f32⟩
  | .local _ .vmem, ⟨5, _⟩ => ⟨S8x1024x128, .f32⟩
  | .local _ .vmem, ⟨6, _⟩ => ⟨S8x1024x128, .f32⟩
  | .local _ .vmem, ⟨7, _⟩ => ⟨S8x1024x128, .f32⟩
  | .local _ .vmem, ⟨8, _⟩ => ⟨S8x1024x128, .f32⟩
  | .local _ .vmem, ⟨9, _⟩ => ⟨S8x1024x128, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  concatenates_S512x512_S1024x512_S1536x512_d0 : Shape.Concatenates [S512x512, S1024x512] S1536x512 0
  transposes_S1536x512_S512x1536_1_0 : S1536x512.Transposes [1, 0] S512x1536
  bitsLt_bf16_f32 : FTy.bits .bf16 < FTy.bits .f32
  concatenates_S512_S1024_S1536_d0 : Shape.Concatenates [S512, S1024] S1536 0
  inb_S2048x512_S2048x512_0_0 : ∀ a, (![0, 0] : Fin 2 → Nat) a + S2048x512.size a ≤ S2048x512.size a
  h_S2048x512 : 0 < S2048x512.numel
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  inb_S1536_S1536_0 : ∀ a, (![0] : Fin 1 → Nat) a + S1536.size a ≤ S1536.size a
  h_S1536 : 0 < S1536.numel
  shapeCasts_S1536_S1536 : S1536.ShapeCasts S1536
  shapeCasts_S1536_S1x1536 : S1536.ShapeCasts S1x1536
  broadcasts_S1x1536_S2048x1536 : S1x1536.Broadcasts S2048x1536
  slices_S2048x1536_o0_0_S2048x64 : S2048x1536.Slices ![0, 0] S2048x64
  shapeCasts_S2048x64_S1024x128 : S2048x64.ShapeCasts S1024x128
  inb_S8x1024x128_S1x1024x128_0_0_0 : ∀ a, (![0, 0, 0] : Fin 3 → Nat) a + S1x1024x128.size a ≤ S8x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  slices_S2048x1536_o0_512_S2048x64 : S2048x1536.Slices ![0, 512] S2048x64
  slices_S2048x1536_o0_1024_S2048x64 : S2048x1536.Slices ![0, 1024] S2048x64
  slices_S2048x1536_o0_64_S2048x64 : S2048x1536.Slices ![0, 64] S2048x64
  inb_S8x1024x128_S1x1024x128_1_0_0 : ∀ a, (![1, 0, 0] : Fin 3 → Nat) a + S1x1024x128.size a ≤ S8x1024x128.size a
  slices_S2048x1536_o0_576_S2048x64 : S2048x1536.Slices ![0, 576] S2048x64
  slices_S2048x1536_o0_1088_S2048x64 : S2048x1536.Slices ![0, 1088] S2048x64
  slices_S2048x1536_o0_128_S2048x64 : S2048x1536.Slices ![0, 128] S2048x64
  inb_S8x1024x128_S1x1024x128_2_0_0 : ∀ a, (![2, 0, 0] : Fin 3 → Nat) a + S1x1024x128.size a ≤ S8x1024x128.size a
  slices_S2048x1536_o0_640_S2048x64 : S2048x1536.Slices ![0, 640] S2048x64
  slices_S2048x1536_o0_1152_S2048x64 : S2048x1536.Slices ![0, 1152] S2048x64
  slices_S2048x1536_o0_192_S2048x64 : S2048x1536.Slices ![0, 192] S2048x64
  inb_S8x1024x128_S1x1024x128_3_0_0 : ∀ a, (![3, 0, 0] : Fin 3 → Nat) a + S1x1024x128.size a ≤ S8x1024x128.size a
  slices_S2048x1536_o0_704_S2048x64 : S2048x1536.Slices ![0, 704] S2048x64
  slices_S2048x1536_o0_1216_S2048x64 : S2048x1536.Slices ![0, 1216] S2048x64
  slices_S2048x1536_o0_256_S2048x64 : S2048x1536.Slices ![0, 256] S2048x64
  inb_S8x1024x128_S1x1024x128_4_0_0 : ∀ a, (![4, 0, 0] : Fin 3 → Nat) a + S1x1024x128.size a ≤ S8x1024x128.size a
  slices_S2048x1536_o0_768_S2048x64 : S2048x1536.Slices ![0, 768] S2048x64
  slices_S2048x1536_o0_1280_S2048x64 : S2048x1536.Slices ![0, 1280] S2048x64
  slices_S2048x1536_o0_320_S2048x64 : S2048x1536.Slices ![0, 320] S2048x64
  inb_S8x1024x128_S1x1024x128_5_0_0 : ∀ a, (![5, 0, 0] : Fin 3 → Nat) a + S1x1024x128.size a ≤ S8x1024x128.size a
  slices_S2048x1536_o0_832_S2048x64 : S2048x1536.Slices ![0, 832] S2048x64
  slices_S2048x1536_o0_1344_S2048x64 : S2048x1536.Slices ![0, 1344] S2048x64
  slices_S2048x1536_o0_384_S2048x64 : S2048x1536.Slices ![0, 384] S2048x64
  inb_S8x1024x128_S1x1024x128_6_0_0 : ∀ a, (![6, 0, 0] : Fin 3 → Nat) a + S1x1024x128.size a ≤ S8x1024x128.size a
  slices_S2048x1536_o0_896_S2048x64 : S2048x1536.Slices ![0, 896] S2048x64
  slices_S2048x1536_o0_1408_S2048x64 : S2048x1536.Slices ![0, 1408] S2048x64
  slices_S2048x1536_o0_448_S2048x64 : S2048x1536.Slices ![0, 448] S2048x64
  inb_S8x1024x128_S1x1024x128_7_0_0 : ∀ a, (![7, 0, 0] : Fin 3 → Nat) a + S1x1024x128.size a ≤ S8x1024x128.size a
  slices_S2048x1536_o0_960_S2048x64 : S2048x1536.Slices ![0, 960] S2048x64
  slices_S2048x1536_o0_1472_S2048x64 : S2048x1536.Slices ![0, 1472] S2048x64
  shapeCasts_S8x32768x128_S8x65536x64 : S8x32768x128.ShapeCasts S8x65536x64
  dot_S2048x512_S512x1536_S2048x1536_1_0_0_1_n_n_wf : DotDims.WF S2048x512 S512x1536 S2048x1536 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S65536x512.size a
  hwx0_0 : ∀ i : grid0.Coords, EltTy.bits .f32 = 32 ∨ (Rect.block (s := S65536x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1536.size a ≤ S512x1536.size a
  hwx0_1 : ∀ i : grid0.Coords, EltTy.bits .bf16 = 32 ∨ (Rect.block (s := S512x1536) S512x1536.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1536.size a ≤ S1536.size a
  hwx0_2 : ∀ i : grid0.Coords, EltTy.bits .f32 = 32 ∨ (Rect.block (s := S1536) S1536.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1024x128.size a ≤ S8x32768x128.size a
  hwx0_3 : ∀ i : grid0.Coords, EltTy.bits .f32 = 32 ∨ (Rect.block (s := S8x32768x128) S8x1024x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x1024x128.size a ≤ S8x32768x128.size a
  hwx0_4 : ∀ i : grid0.Coords, EltTy.bits .f32 = 32 ∨ (Rect.block (s := S8x32768x128) S8x1024x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x1024x128.size a ≤ S8x32768x128.size a
  hwx0_5 : ∀ i : grid0.Coords, EltTy.bits .f32 = 32 ∨ (Rect.block (s := S8x32768x128) S8x1024x128.size (cc0_transform_5 i) (hinb0_5 i)).WholeWords (EltTy.packing .f32)

variable [Facts₀]

def dot_S2048x512_S512x1536_S2048x1536_1_0_0_1_n_n : DotDims S2048x512 S512x1536 S2048x1536 where
  lhsContracting := [1]
  rhsContracting := [0]
  lhsNonContracting := [0]
  rhsNonContracting := [1]
  lhsBatch := []
  rhsBatch := []
  wf := dot_S2048x512_S512x1536_S2048x1536_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x1536.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1536.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S8x1024x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S8x1024x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_2) S8x1024x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S65536x512 : Shape := ⟨2, ![65536, 512]⟩
abbrev S512x512 : Shape := ⟨2, ![512, 512]⟩
abbrev S512 : Shape := ⟨1, ![512]⟩
abbrev S1024x512 : Shape := ⟨2, ![1024, 512]⟩
abbrev S1024 : Shape := ⟨1, ![1024]⟩
abbrev S1x512 : Shape := ⟨2, ![1, 512]⟩
abbrev S65536x8x64 : Shape := ⟨3, ![65536, 8, 64]⟩
abbrev S8x65536x64 : Shape := ⟨3, ![8, 65536, 64]⟩
abbrev S512x1024 : Shape := ⟨2, ![512, 1024]⟩
abbrev S65536x1024 : Shape := ⟨2, ![65536, 1024]⟩
abbrev S1x1024 : Shape := ⟨2, ![1, 1024]⟩
abbrev S65536x2x8x64 : Shape := ⟨4, ![65536, 2, 8, 64]⟩
abbrev S65536x1x8x64 : Shape := ⟨4, ![65536, 1, 8, 64]⟩

abbrev nBuf : Space → Nat
  | .hbm => 24
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S512x512, .f32⟩
  | .hbm, ⟨2, _⟩ => ⟨S512, .f32⟩
  | .hbm, ⟨3, _⟩ => ⟨S1024x512, .f32⟩
  | .hbm, ⟨4, _⟩ => ⟨S1024, .f32⟩
  | .hbm, ⟨5, _⟩ => ⟨S512x512, .f32⟩
  | .hbm, ⟨6, _⟩ => ⟨S65536x512, .f32⟩
  | .hbm, ⟨7, _⟩ => ⟨S1x512, .f32⟩
  | .hbm, ⟨8, _⟩ => ⟨S65536x512, .f32⟩
  | .hbm, ⟨9, _⟩ => ⟨S65536x512, .f32⟩
  | .hbm, ⟨10, _⟩ => ⟨S65536x8x64, .f32⟩
  | .hbm, ⟨11, _⟩ => ⟨S8x65536x64, .f32⟩
  | .hbm, ⟨12, _⟩ => ⟨S512x1024, .f32⟩
  | .hbm, ⟨13, _⟩ => ⟨S65536x1024, .f32⟩
  | .hbm, ⟨14, _⟩ => ⟨S1x1024, .f32⟩
  | .hbm, ⟨15, _⟩ => ⟨S65536x1024, .f32⟩
  | .hbm, ⟨16, _⟩ => ⟨S65536x1024, .f32⟩
  | .hbm, ⟨17, _⟩ => ⟨S65536x2x8x64, .f32⟩
  | .hbm, ⟨18, _⟩ => ⟨S65536x1x8x64, .f32⟩
  | .hbm, ⟨19, _⟩ => ⟨S65536x8x64, .f32⟩
  | .hbm, ⟨20, _⟩ => ⟨S8x65536x64, .f32⟩
  | .hbm, ⟨21, _⟩ => ⟨S65536x1x8x64, .f32⟩
  | .hbm, ⟨22, _⟩ => ⟨S65536x8x64, .f32⟩
  | .hbm, ⟨23, _⟩ => ⟨S8x65536x64, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩

abbrev nD : Nat := 1
abbrev τ : Topo := Topo.v7x

variable {F : FTy → Type} [FloatOps F]

class Facts₀ : Prop where
  transposes_S512x512_S512x512_1_0 : S512x512.Transposes [1, 0] S512x512
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  shapeCasts_S65536x512_S65536x8x64 : S65536x512.ShapeCasts S65536x8x64
  transposes_S65536x8x64_S8x65536x64_1_0_2 : S65536x8x64.Transposes [1, 0, 2] S8x65536x64
  transposes_S1024x512_S512x1024_1_0 : S1024x512.Transposes [1, 0] S512x1024
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  shapeCasts_S65536x1024_S65536x2x8x64 : S65536x1024.ShapeCasts S65536x2x8x64
  slices_S65536x2x8x64_S65536x1x8x64_0_0_0_0 : S65536x2x8x64.Slices ![0, 0, 0, 0] S65536x1x8x64
  shapeCasts_S65536x1x8x64_S65536x8x64 : S65536x1x8x64.ShapeCasts S65536x8x64
  slices_S65536x2x8x64_S65536x1x8x64_0_1_0_0 : S65536x2x8x64.Slices ![0, 1, 0, 0] S65536x1x8x64
  dot_S65536x512_S512x512_S65536x512_1_0_0_1_n_n_wf : DotDims.WF S65536x512 S512x512 S65536x512 [1] [0] [0] [1] [] []
  dot_S65536x512_S512x1024_S65536x1024_1_0_0_1_n_n_wf : DotDims.WF S65536x512 S512x1024 S65536x1024 [1] [0] [0] [1] [] []

variable [Facts₀]

def dot_S65536x512_S512x512_S65536x512_1_0_0_1_n_n : DotDims S65536x512 S512x512 S65536x512 where
  lhsContracting := [1]
  rhsContracting := [0]
  lhsNonContracting := [0]
  rhsNonContracting := [1]
  lhsBatch := []
  rhsBatch := []
  wf := dot_S65536x512_S512x512_S65536x512_1_0_0_1_n_n_wf
def dot_S65536x512_S512x1024_S65536x1024_1_0_0_1_n_n : DotDims S65536x512 S512x1024 S65536x1024 where
  lhsContracting := [1]
  rhsContracting := [0]
  lhsNonContracting := [0]
  rhsNonContracting := [1]
  lhsBatch := []
  rhsBatch := []
  wf := dot_S65536x512_S512x1024_S65536x1024_1_0_0_1_n_n_wf

class Facts : Prop extends Facts₀ where

variable [Facts]
-- ==== Proof.HeadSplit.lean ====
/-
  The head-split projection, over the extended reals.

  A token matrix `x` of 65536 rows and 512 features is multiplied by the transpose of a weight matrix `W` whose
  rows are output features, a bias is added to every row, and a band of 512 consecutive output features, starting
  at feature `base`, is cut into 8 heads of 64 features each.  The entry for head `h`, token `n` and position `d`
  inside the head is

      ∑ k, x (n, k) * W (base + 64 h + d, k)  +  b (base + 64 h + d).

  The query projection is the band at 0 of a 512-row weight; the key and value projections are the bands at 0
  and at 512 of one 1024-row weight.
-/
import Idealize.ShloMosaic.PureOps.Ideal
import Idealize.ShloMosaic.Lib.ValueIdx
import Idealize.ShloMosaic.Lib.Pipeline.Value

noncomputable section

open scoped BigOperators
open Idealize.ShloMosaic Idealize.ShloMosaic.ValueIdx

namespace HeadSplit

/-- The output feature that head `h` holds at position `d`, in a band of 512 features starting at `base`. -/
def feature {R : ℕ} (base : ℕ) (hb : base + 512 ≤ R) (h : Fin 8) (d : Fin 64) : Fin R :=
  ⟨base + 64 * h.val + d.val, by have := h.isLt; have := d.isLt; omega⟩

theorem feature_val {R : ℕ} (base : ℕ) (hb : base + 512 ≤ R) (h : Fin 8) (d : Fin 64) :
    (feature base hb h d).val = base + 64 * h.val + d.val := rfl

/-- The projection of the tokens on the band of features starting at `base`, head by head. -/
def headProj {R : ℕ} (base : ℕ) (hb : base + 512 ≤ R) (x : (⟨2, ![65536, 512]⟩ : Shape).Idx → EReal)
    (W : (⟨2, ![R, 512]⟩ : Shape).Idx → EReal) (b : (⟨1, ![R]⟩ : Shape).Idx → EReal) :
    (⟨3, ![8, 65536, 64]⟩ : Shape).Idx → EReal :=
  fun i => (∑ k : Fin 512, x (ix2 (i 1) k) * W (ix2 (feature base hb (i 0) (i 2)) k)) + b (ix1 (feature base hb (i 0) (i 2)))

/-- The same entry from a token row and a feature named by their positions. -/
theorem headProj_apply {R : ℕ} (base : ℕ) (hb : base + 512 ≤ R) (x : (⟨2, ![65536, 512]⟩ : Shape).Idx → EReal)
    (W : (⟨2, ![R, 512]⟩ : Shape).Idx → EReal) (b : (⟨1, ![R]⟩ : Shape).Idx → EReal)
    (i : (⟨3, ![8, 65536, 64]⟩ : Shape).Idx) (n : Fin 65536) (f : Fin R)
    (hn : n.val = (i 1).val) (hf : f.val = base + 64 * (i 0).val + (i 2).val) :
    headProj base hb x W b i = (∑ k : Fin 512, x (ix2 n k) * W (ix2 f k)) + b (ix1 f) := by
  have e1 : (i 1) = n := Fin.ext hn.symm
  have e2 : feature base hb (i 0) (i 2) = f := Fin.ext hf.symm
  unfold headProj
  rw [e1, e2]

/-! ## The same projection from a fused, transposed weight

  The three weights may be stacked into one matrix of 1536 output features and transposed, `wt (k, c)` being the
  weight of input feature `k` for output feature `c`; the biases are stacked alike. -/

/-- Entry (h, n, d) from the fused transposed weight: the band of 512 output features starting at `base`. -/
def fusedProj (base : ℕ) (hb : base + 512 ≤ 1536) (x : (⟨2, ![65536, 512]⟩ : Shape).Idx → EReal)
    (wt : (⟨2, ![512, 1536]⟩ : Shape).Idx → EReal) (bias : (⟨1, ![1536]⟩ : Shape).Idx → EReal) :
    (⟨3, ![8, 65536, 64]⟩ : Shape).Idx → EReal :=
  fun i => (∑ k : Fin 512, x (ix2 (i 1) k) * wt (ix2 k (feature base hb (i 0) (i 2)))) + bias (ix1 (feature base hb (i 0) (i 2)))

/-- When the band of the fused weight at `base` is the band of `W` at `base'` (and the biases alike), the two
    projections are the same, entry by entry. -/
theorem fusedProj_eq_headProj {R : ℕ} (base base' : ℕ) (hb : base + 512 ≤ 1536) (hb' : base' + 512 ≤ R)
    (x : (⟨2, ![65536, 512]⟩ : Shape).Idx → EReal)
    (wt : (⟨2, ![512, 1536]⟩ : Shape).Idx → EReal) (bias : (⟨1, ![1536]⟩ : Shape).Idx → EReal)
    (W : (⟨2, ![R, 512]⟩ : Shape).Idx → EReal) (b : (⟨1, ![R]⟩ : Shape).Idx → EReal)
    (hW : ∀ (h : Fin 8) (d : Fin 64) (k : Fin 512), wt (ix2 k (feature base hb h d)) = W (ix2 (feature base' hb' h d) k))
    (hB : ∀ (h : Fin 8) (d : Fin 64), bias (ix1 (feature base hb h d)) = b (ix1 (feature base' hb' h d))) :
    fusedProj base hb x wt bias = headProj base' hb' x W b := by
  funext i
  unfold fusedProj headProj
  exact congrArg₂ (· + ·) (Finset.sum_congr rfl fun k _ => congrArg (x (ix2 (i 1) k) * ·) (hW (i 0) (i 2) k)) (hB (i 0) (i 2))

/-- The entry from a token row and an output feature named by their positions. -/
theorem fusedProj_apply (base : ℕ) (hb : base + 512 ≤ 1536) (x : (⟨2, ![65536, 512]⟩ : Shape).Idx → EReal)
    (wt : (⟨2, ![512, 1536]⟩ : Shape).Idx → EReal) (bias : (⟨1, ![1536]⟩ : Shape).Idx → EReal)
    (i : (⟨3, ![8, 65536, 64]⟩ : Shape).Idx) (n : Fin 65536) (f : Fin 1536)
    (hn : n.val = (i 1).val) (hf : f.val = base + 64 * (i 0).val + (i 2).val) :
    fusedProj base hb x wt bias i = (∑ k : Fin 512, x (ix2 n k) * wt (ix2 k f)) + bias (ix1 f) := by
  have e1 : (i 1) = n := Fin.ext hn.symm
  have e2 : feature base hb (i 0) (i 2) = f := Fin.ext hf.symm
  unfold fusedProj
  rw [e1, e2]

/-! ## Two tokens to a row of 128 lanes

  Stored with 32768 rows of 128 lanes per head, row `r` holds tokens `2 r` and `2 r + 1` side by side: lane `l`
  is position `l % 64` of token `2 r + l / 64`.  Read back in row-major order as 65536 rows of 64 it is the
  head-split projection. -/

/-- Entry (h, r, l) of the paired layout. -/
def pairedProj (base : ℕ) (hb : base + 512 ≤ 1536) (x : (⟨2, ![65536, 512]⟩ : Shape).Idx → EReal)
    (wt : (⟨2, ![512, 1536]⟩ : Shape).Idx → EReal) (bias : (⟨1, ![1536]⟩ : Shape).Idx → EReal) :
    (⟨3, ![8, 32768, 128]⟩ : Shape).Idx → EReal :=
  fun i => fusedProj base hb x wt bias (ix3 (i 0)
    (⟨2 * (i 1).val + (i 2).val / 64, by
      have h1 : (i 1).val < 32768 := (i 1).isLt
      have h2 : (i 2).val < 128 := (i 2).isLt
      omega⟩ : Fin 65536)
    (⟨(i 2).val % 64, Nat.mod_lt _ (by norm_num)⟩ : Fin 64))

/-- The paired layout's entry from a token row and an output feature named by their positions. -/
theorem pairedProj_apply (base : ℕ) (hb : base + 512 ≤ 1536) (x : (⟨2, ![65536, 512]⟩ : Shape).Idx → EReal)
    (wt : (⟨2, ![512, 1536]⟩ : Shape).Idx → EReal) (bias : (⟨1, ![1536]⟩ : Shape).Idx → EReal)
    (i : (⟨3, ![8, 32768, 128]⟩ : Shape).Idx) (n : Fin 65536) (f : Fin 1536)
    (hn : n.val = 2 * (i 1).val + (i 2).val / 64) (hf : f.val = base + 64 * (i 0).val + (i 2).val % 64) :
    pairedProj base hb x wt bias i = (∑ k : Fin 512, x (ix2 n k) * wt (ix2 k f)) + bias (ix1 f) := by
  unfold pairedProj
  exact fusedProj_apply base hb x wt bias _ n f hn hf

/-- Reading the paired layout in row-major order as [8, 65536, 64] gives the head-split projection. -/
theorem unpair (base : ℕ) (hb : base + 512 ≤ 1536) (x : (⟨2, ![65536, 512]⟩ : Shape).Idx → EReal)
    (wt : (⟨2, ![512, 1536]⟩ : Shape).Idx → EReal) (bias : (⟨1, ![1536]⟩ : Shape).Idx → EReal)
    (hc : (⟨3, ![8, 32768, 128]⟩ : Shape).ShapeCasts (⟨3, ![8, 65536, 64]⟩ : Shape)) :
    shapeCast (⟨3, ![8, 65536, 64]⟩ : Shape) (pairedProj base hb x wt bias) hc = fusedProj base hb x wt bias := by
  funext j
  have h0 : (j 0).val < 8 := (j 0).isLt
  have h1 : (j 1).val < 65536 := (j 1).isLt
  have h2 : (j 2).val < 64 := (j 2).isLt
  refine (shapeCast_apply _ hc j (ix3 (j 0) (⟨(j 1).val / 2, by omega⟩ : Fin 32768) (⟨(j 1).val % 2 * 64 + (j 2).val, by omega⟩ : Fin 128)) ?_).trans ?_
  · rw [Shape.rowMajor_val_three, Shape.rowMajor_val_three]
    show ((j 0).val * 32768 + (j 1).val / 2) * 128 + ((j 1).val % 2 * 64 + (j 2).val) = ((j 0).val * 65536 + (j 1).val) * 64 + (j 2).val
    omega
  · unfold pairedProj
    refine congrArg (fusedProj base hb x wt bias) ?_
    funext a
    apply Fin.ext
    match a with
    | ⟨0, _⟩ => rfl
    | ⟨1, _⟩ => show 2 * ((j 1).val / 2) + ((j 1).val % 2 * 64 + (j 2).val) / 64 = (j 1).val; omega
    | ⟨2, _⟩ => show ((j 1).val % 2 * 64 + (j 2).val) % 64 = (j 2).val; omega

end HeadSplit

end
-- ==== Proof.RefHeads.lean ====
/-
  The reference's three results are head-split projections.

  The reference multiplies the tokens by the transposed query weight, adds the query bias, cuts the 512 output
  features into 8 heads of 64 and moves the head axis to the front: entry (h, n, d) is feature 64 h + d of token n.
  For keys and values it multiplies by the transposed 1024-row weight, adds the bias, cuts the 1024 features into
  (2, 8, 64), takes the first or the second half and moves the head axis to the front: entry (h, n, d) is feature
  64 h + d, respectively 512 + 64 h + d, of token n.
-/
import proofs.«115786_j17575006175259_2_alg».proof.Proof.Gen.ReferenceIdeal.Read
import proofs.«115786_j17575006175259_2_alg».proof.Proof.HeadSplit

noncomputable section

open scoped BigOperators
open Idealize.ShloMosaic Idealize.ShloMosaic.ValueIdx

namespace Cert.ReferenceIdeal.RefHeads

open Cert.ReferenceIdeal Cert.ReferenceIdeal.Read HeadSplit

/-- Queries: the band of features at 0 of the 512-row weight. -/
theorem queries (x0 : (⟨S65536x512, .f32⟩ : BufTy).Contents (Elt Ideal)) (x1 : (⟨S512x512, .f32⟩ : BufTy).Contents (Elt Ideal))
    (x2 : (⟨S512, .f32⟩ : BufTy).Contents (Elt Ideal)) :
    val_main_v6 (F := Ideal) x0 x1 x2 = headProj 0 (by norm_num) x0 x1 x2 := by
  funext i
  obtain ⟨h, n, d, rfl⟩ : ∃ (h : Fin 8) (n : Fin 65536) (d : Fin 64), i = ix3 h n d := ⟨i 0, i 1, i 2, eq_ix3 i⟩
  have hh := h.isLt
  have hd := d.isLt
  have hn := n.isLt
  let f : Fin 512 := ⟨64 * h.val + d.val, by omega⟩
  have ej : idx_main_v5 (idx_main_v6 (ix3 h n d)) = ix2 n f := by
    funext a; apply Fin.ext
    match a with
    | ⟨0, _⟩ => show ((n.val * 8 + h.val) * 64 + d.val) / 512 = n.val; omega
    | ⟨1, _⟩ => show ((n.val * 8 + h.val) * 64 + d.val) % 512 = 64 * h.val + d.val; omega
  rw [val_main_v6_apply, val_main_v5_apply, ej, val_main_v4_apply, val_main_v1_apply, val_main_v3_apply, val_main_v2_apply,
    headProj_apply 0 (by norm_num) x0 x1 x2 (ix3 h n d) n f rfl (by show 64 * h.val + d.val = 0 + 64 * h.val + d.val; omega)]
  have el : ∀ k : Fin 512, lidx_main_v1 (ix2 n f) k = ix2 n k := fun k => by
    funext a; match a with | ⟨0, _⟩ => rfl | ⟨1, _⟩ => rfl
  have er : ∀ k : Fin 512, idx_main_v0 (ridx_main_v1 (ix2 n f) k) = ix2 f k := fun k => by
    funext a; match a with | ⟨0, _⟩ => rfl | ⟨1, _⟩ => rfl
  have eb : idx_main_v2 (idx_main_v3 (ix2 n f)) = ix1 f := by
    funext a; match a with | ⟨0, _⟩ => rfl
  simp only [val_main_v0_apply, el, er, eb]
  rfl

/-- Keys: the band of features at 0 of the 1024-row weight (the first half of the (2, 8, 64) cut). -/
theorem keys (x0 : (⟨S65536x512, .f32⟩ : BufTy).Contents (Elt Ideal)) (x3 : (⟨S1024x512, .f32⟩ : BufTy).Contents (Elt Ideal))
    (x4 : (⟨S1024, .f32⟩ : BufTy).Contents (Elt Ideal)) :
    val_main_v15 (F := Ideal) x0 x3 x4 = headProj 0 (by norm_num) x0 x3 x4 := by
  funext i
  obtain ⟨h, n, d, rfl⟩ : ∃ (h : Fin 8) (n : Fin 65536) (d : Fin 64), i = ix3 h n d := ⟨i 0, i 1, i 2, eq_ix3 i⟩
  have hh := h.isLt
  have hd := d.isLt
  have hn := n.isLt
  let f : Fin 1024 := ⟨64 * h.val + d.val, by omega⟩
  have ej : idx_main_v12 (idx_main_v13 (idx_main_v14 (idx_main_v15 (ix3 h n d)))) = ix2 n f := by
    funext a; apply Fin.ext
    match a with
    | ⟨0, _⟩ =>
      show (((((n.val * 8 + h.val) * 64 + d.val) / 512 * 2 + 0) * 8 + ((n.val * 8 + h.val) * 64 + d.val) / 64 % 8) * 64
        + ((n.val * 8 + h.val) * 64 + d.val) % 64) / 1024 = n.val
      omega
    | ⟨1, _⟩ =>
      show (((((n.val * 8 + h.val) * 64 + d.val) / 512 * 2 + 0) * 8 + ((n.val * 8 + h.val) * 64 + d.val) / 64 % 8) * 64
        + ((n.val * 8 + h.val) * 64 + d.val) % 64) % 1024 = 64 * h.val + d.val
      omega
  rw [val_main_v15_apply, val_main_v14_apply, val_main_v13_apply, val_main_v12_apply, ej, val_main_v11_apply, val_main_v8_apply, val_main_v10_apply, val_main_v9_apply,
    headProj_apply 0 (by norm_num) x0 x3 x4 (ix3 h n d) n f rfl (by show 64 * h.val + d.val = 0 + 64 * h.val + d.val; omega)]
  have el : ∀ k : Fin 512, lidx_main_v8 (ix2 n f) k = ix2 n k := fun k => by
    funext a; match a with | ⟨0, _⟩ => rfl | ⟨1, _⟩ => rfl
  have er : ∀ k : Fin 512, idx_main_v7 (ridx_main_v8 (ix2 n f) k) = ix2 f k := fun k => by
    funext a; match a with | ⟨0, _⟩ => rfl | ⟨1, _⟩ => rfl
  have eb : idx_main_v9 (idx_main_v10 (ix2 n f)) = ix1 f := by
    funext a; match a with | ⟨0, _⟩ => rfl
  simp only [val_main_v7_apply, el, er, eb]
  rfl

/-- Values: the band of features at 512 of the 1024-row weight (the second half of the (2, 8, 64) cut). -/
theorem values (x0 : (⟨S65536x512, .f32⟩ : BufTy).Contents (Elt Ideal)) (x3 : (⟨S1024x512, .f32⟩ : BufTy).Contents (Elt Ideal))
    (x4 : (⟨S1024, .f32⟩ : BufTy).Contents (Elt Ideal)) :
    val_main_v18 (F := Ideal) x0 x3 x4 = headProj 512 (by norm_num) x0 x3 x4 := by
  funext i
  obtain ⟨h, n, d, rfl⟩ : ∃ (h : Fin 8) (n : Fin 65536) (d : Fin 64), i = ix3 h n d := ⟨i 0, i 1, i 2, eq_ix3 i⟩
  have hh := h.isLt
  have hd := d.isLt
  have hn := n.isLt
  let f : Fin 1024 := ⟨512 + 64 * h.val + d.val, by omega⟩
  have ej : idx_main_v12 (idx_main_v16 (idx_main_v17 (idx_main_v18 (ix3 h n d)))) = ix2 n f := by
    funext a; apply Fin.ext
    match a with
    | ⟨0, _⟩ =>
      show (((((n.val * 8 + h.val) * 64 + d.val) / 512 * 2 + (1 + 0)) * 8 + ((n.val * 8 + h.val) * 64 + d.val) / 64 % 8) * 64
        + ((n.val * 8 + h.val) * 64 + d.val) % 64) / 1024 = n.val
      omega
    | ⟨1, _⟩ =>
      show (((((n.val * 8 + h.val) * 64 + d.val) / 512 * 2 + (1 + 0)) * 8 + ((n.val * 8 + h.val) * 64 + d.val) / 64 % 8) * 64
        + ((n.val * 8 + h.val) * 64 + d.val) % 64) % 1024 = 512 + 64 * h.val + d.val
      omega
  rw [val_main_v18_apply, val_main_v17_apply, val_main_v16_apply, val_main_v12_apply, ej, val_main_v11_apply, val_main_v8_apply, val_main_v10_apply, val_main_v9_apply,
    headProj_apply 512 (by norm_num) x0 x3 x4 (ix3 h n d) n f rfl (by show 512 + 64 * h.val + d.val = 512 + 64 * h.val + d.val; omega)]
  have el : ∀ k : Fin 512, lidx_main_v8 (ix2 n f) k = ix2 n k := fun k => by
    funext a; match a with | ⟨0, _⟩ => rfl | ⟨1, _⟩ => rfl
  have er : ∀ k : Fin 512, idx_main_v7 (ridx_main_v8 (ix2 n f) k) = ix2 f k := fun k => by
    funext a; match a with | ⟨0, _⟩ => rfl | ⟨1, _⟩ => rfl
  have eb : idx_main_v9 (idx_main_v10 (ix2 n f)) = ix1 f := by
    funext a; match a with | ⟨0, _⟩ => rfl
  simp only [val_main_v7_apply, el, er, eb]
  rfl

end Cert.ReferenceIdeal.RefHeads

end
-- ==== Proof.LibMatmul.lean ====
/-
  A plain matrix product read at an entry, over the extended reals.

  A two-dimensional contraction `[M, K] × [K, N] → [M, N]` whose dimension numbers contract the left operand's
  second axis with the right operand's first, with no batch axis, accumulated into the zero matrix, has at the
  entry `(p, q)` the value `∑ k, lhs (p, k) * rhs (k, q)`: the textbook sum over the `K` positions of the
  contracted axis, with no order or grouping left in it.
-/
import Idealize.ShloMosaic.PureOps.Ideal.Laws
import Idealize.ShloMosaic.Lib.ValueIdx

noncomputable section

open scoped BigOperators
open Idealize.ShloMosaic Idealize.ShloMosaic.ValueIdx

namespace PlainMatmul

variable {M K N : ℕ}

/-- The dimension numbers of a plain product: rows times columns, one contracted axis, no batch axis. -/
structure IsPlain (d : DotDims (⟨2, ![M, K]⟩ : Shape) (⟨2, ![K, N]⟩ : Shape) (⟨2, ![M, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![M, K]⟩ : Shape) (⟨2, ![K, N]⟩ : Shape) (⟨2, ![M, N]⟩ : Shape)}

theorem IsPlain.rank (h : IsPlain d) : d.contr.rank = 1 := by rw [d.rank_contr, h.lc]; rfl

theorem IsPlain.size (h : IsPlain d) : d.contr.size ⟨0, by rw [h.rank]; exact Nat.one_pos⟩ = K := by
  rw [d.size_contr 0 (by rw [h.lc]; exact Nat.one_pos)]
  simp only [h.lc]
  rfl

/-- The left operand is read at row `p` of the output entry … -/
theorem IsPlain.lhs_row (h : IsPlain d) (j : (⟨2, ![M, N]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln])

/-- … and the right operand at column `q`. -/
theorem IsPlain.rhs_col (h : IsPlain d) (j : (⟨2, ![M, N]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln, h.rn])

/-- A plain product into the zero matrix, at the entry `(p, q)`, is the sum over the contracted axis of the
    products of the left operand's row `p` with the right operand's column `q`. -/
theorem apply {φ₁ φ₂ : FTy} (h : IsPlain d) (prec : Option ContractPrecision)
    (lhs : FVec Ideal (⟨2, ![M, K]⟩ : Shape) φ₁) (rhs : FVec Ideal (⟨2, ![K, N]⟩ : Shape) φ₂) (p : Fin M) (q : Fin N) :
    FloatOps.matmul d prec lhs rhs (constant (⟨2, ![M, N]⟩ : Shape) .f32 0x00000000#32) (ix2 p q)
      = ∑ k : Fin K, (lhs (ix2 p k) : EReal) * (rhs (ix2 k q) : EReal) := by
  rw [Ideal.matmul_constant_zero_apply]
  rw [← Equiv.sum_comp (contrEquiv1 d K h.rank h.size).symm]
  refine Finset.sum_congr rfl fun k _ => ?_
  have hl : d.lhsIdx (ix2 p q) ((contrEquiv1 d K h.rank h.size).symm k) = ix2 p k := by
    funext a
    apply Fin.ext
    match a with
    | ⟨0, _⟩ => exact h.lhs_row _ _
    | ⟨1, _⟩ => exact (d.lhsIdx_val_of_single h.lc _ _).trans (contrEquiv1_symm_val d K h.rank h.size k)
  have hr : d.rhsIdx (ix2 p q) ((contrEquiv1 d K h.rank h.size).symm k) = ix2 k q := by
    funext a
    apply Fin.ext
    match a with
    | ⟨0, _⟩ => exact (d.rhsIdx_val_of_single h.rc _ _).trans (contrEquiv1_symm_val d K h.rank h.size k)
    | ⟨1, _⟩ => exact h.rhs_col _ _
  rw [hl, hr]

end PlainMatmul

end
-- ==== Proof.LibDense.lean ====
/-
  The body of a dense layer read at an entry, over the extended reals: a plain product into the zero matrix plus a bias
  row `[1, N]` repeated down the rows is, at the entry `(p, q)`, `∑ k, x (p, k) * w (k, q) + b (0, q)`.
-/
import Idealize.ShloMosaic.PureOps.Ideal.Laws
import Idealize.ShloMosaic.Lib.ValueIdx
import Idealize.ShloMosaic.Lib.Pipeline.Value
import proofs.«115786_j17575006175259_2_alg».proof.Proof.LibMatmul

noncomputable section

open scoped BigOperators
open Idealize.ShloMosaic Idealize.ShloMosaic.ValueIdx

namespace DenseBody

variable {M K N : ℕ}

/-- A row `[1, N]` repeated down `M` rows has, at `(p, q)`, the row's entry `q`. -/
theorem row_apply {α : Type} (b : (⟨2, ![1, N]⟩ : Shape).Idx → α)
    (h : (⟨2, ![1, N]⟩ : Shape).Broadcasts (⟨2, ![M, N]⟩ : Shape)) (p : Fin M) (q : Fin N) :
    broadcastTo (⟨2, ![M, N]⟩ : Shape) b h (ix2 p q) = b (ix2 0 q) := by
  refine broadcastTo_apply b h (ix2 p q) (ix2 0 q) fun a => ?_
  match a with
  | ⟨0, _⟩ => exact (if_pos rfl).symm
  | ⟨1, _⟩ =>
    show q.val = if N = 1 then 0 else q.val
    split
    · have := q.isLt; omega
    · rfl

/-- The product into the zero matrix plus the repeated bias row, at the entry `(p, q)`. -/
theorem apply {φ₁ φ₂ : FTy} {d : DotDims (⟨2, ![M, K]⟩ : Shape) (⟨2, ![K, N]⟩ : Shape) (⟨2, ![M, N]⟩ : Shape)}
    (hd : PlainMatmul.IsPlain d) (prec : Option ContractPrecision)
    (x : FVec Ideal (⟨2, ![M, K]⟩ : Shape) φ₁) (w : FVec Ideal (⟨2, ![K, N]⟩ : Shape) φ₂)
    (b : FVec Ideal (⟨2, ![1, N]⟩ : Shape) .f32) (hb : (⟨2, ![1, N]⟩ : Shape).Broadcasts (⟨2, ![M, N]⟩ : Shape))
    (p : Fin M) (q : Fin N) :
    addf (matmul d prec x w (constant (⟨2, ![M, N]⟩ : Shape) .f32 0x00000000#32)) (broadcastTo (⟨2, ![M, N]⟩ : Shape) b hb) (ix2 p q)
      = (∑ k : Fin K, (x (ix2 p k) : EReal) * (w (ix2 k q) : EReal)) + (b (ix2 0 q) : EReal) := by
  show FloatOps.matmul d prec x w (constant (⟨2, ![M, N]⟩ : Shape) .f32 0x00000000#32) (ix2 p q)
      + broadcastTo (⟨2, ![M, N]⟩ : Shape) b hb (ix2 p q) = _
  rw [PlainMatmul.apply hd, row_apply]

end DenseBody

end
-- ==== Proof.LibLayout.lean ====
/-
  A flat array of `N` numbers read as one row `[1, N]`: the row's entry `q` is the array's entry `q`.
-/
import Idealize.ShloMosaic.Lib.ValueIdx
import Idealize.ShloMosaic.Lib.Pipeline.Value

noncomputable section

open Idealize.ShloMosaic Idealize.ShloMosaic.ValueIdx

namespace RowOfFlat

variable {N : ℕ} {α : Type}

theorem apply (x : (⟨1, ![N]⟩ : Shape).Idx → α) (h : (⟨1, ![N]⟩ : Shape).ShapeCasts (⟨2, ![1, N]⟩ : Shape)) (q : Fin N) :
    shapeCast (⟨2, ![1, N]⟩ : Shape) x h (ix2 (0 : Fin 1) q) = x (ix1 q) :=
  (shapeCast_addUnit_apply ![N] x h (ix2 (0 : Fin 1) q)).trans
    (congrArg x (funext fun a => by match a with | ⟨0, _⟩ => rfl))

/-- As a whole array: reading the row's entries back gives the flat array. -/
theorem eq (x : (⟨1, ![N]⟩ : Shape).Idx → α) (h : (⟨1, ![N]⟩ : Shape).ShapeCasts (⟨2, ![1, N]⟩ : Shape)) :
    (fun j : (⟨1, ![N]⟩ : Shape).Idx => shapeCast (⟨2, ![1, N]⟩ : Shape) x h (ix2 (0 : Fin 1) (j 0))) = x := by
  funext j
  exact (apply x h (j 0)).trans (congrArg x (eq_ix1 j).symm)

end RowOfFlat

end
-- ==== Proof.LibReshape.lean ====
/-
  Two reshapes in a row read the entry with the same row-major position.

  A reshape keeps the row-major order of the elements and changes only how positions are grouped into coordinates.
  So reshaping to any intermediate shape and on to a final one — flattening a matrix and cutting the flat sequence
  into rows of another length, say — reads, at an index of the final shape, the operand's entry whose row-major
  position is the same; the intermediate shape plays no part. For two matrices the positions are
  `row · (row length) + column` on both sides.
-/
import Idealize.ShloMosaic.Lib.Pipeline.Value
import Idealize.ShloMosaic.Lib.ValueIdx

noncomputable section

open Idealize.ShloMosaic Idealize.ShloMosaic.ValueIdx

namespace ReshapeTwice

/-- A cast through any intermediate shape `u`, read at `j`, is the operand at the index `k` with `j`'s row-major
    position. -/
theorem apply {α : Type} {s u t : Shape} (x : s.Idx → α) (h1 : s.ShapeCasts u) (h2 : u.ShapeCasts t)
    (j : t.Idx) (k : s.Idx) (hk : (s.rowMajor k).val = (t.rowMajor j).val) :
    shapeCast t (shapeCast u x h1) h2 j = x k := by
  unfold shapeCast
  refine congrArg x ?_
  rw [Shape.reshapeEquiv_reshapeEquiv]
  exact Shape.reshapeEquiv_eq_of_rowMajor _ hk

/-- Matrix to matrix through any intermediate shape: entry `(b0, b1)` of the result is entry `(a0, a1)` of the
    operand when `a0 · A1 + a1 = b0 · B1 + b1`. -/
theorem apply_ix2 {α : Type} {A0 A1 B0 B1 : ℕ} {u : Shape} (x : (⟨2, ![A0, A1]⟩ : Shape).Idx → α)
    (h1 : (⟨2, ![A0, A1]⟩ : Shape).ShapeCasts u) (h2 : u.ShapeCasts (⟨2, ![B0, B1]⟩ : Shape))
    (a0 : Fin A0) (a1 : Fin A1) (b0 : Fin B0) (b1 : Fin B1)
    (h : a0.val * A1 + a1.val = b0.val * B1 + b1.val) :
    shapeCast (⟨2, ![B0, B1]⟩ : Shape) (shapeCast u x h1) h2 (ix2 b0 b1) = x (ix2 a0 a1) :=
  apply x h1 h2 (ix2 b0 b1) (ix2 a0 a1)
    ((Shape.rowMajor_val_two (ix2 a0 a1)).trans (h.trans (Shape.rowMajor_val_two (ix2 b0 b1)).symm))

end ReshapeTwice

end
-- ==== Proof.TileBody.lean ====
/-
  What the kernel body computes from one tile of 2048 token rows, entry by entry, over the extended reals.

  The body forms the fused tile  out (p, c) = ∑ k, x (p, k) * wt (k, c) + bias (c)  of 2048 rows and 1536 columns
  (narrowing the tokens before the product is the identity on extended reals), then, for each of the three results
  and each head, cuts a band of 64 columns and regroups its 2048 x 64 entries, in row-major order, as 1024 rows of
  128 lanes: lane l of row r holds entry (2 r + l / 64, l % 64) of the band — two consecutive token rows side by
  side.
-/
import proofs.«115786_j17575006175259_2_alg».proof.Proof.Gen.KernelIdeal.Skeleton
import proofs.«115786_j17575006175259_2_alg».proof.Proof.LibDense
import proofs.«115786_j17575006175259_2_alg».proof.Proof.LibLayout
import proofs.«115786_j17575006175259_2_alg».proof.Proof.LibReshape

noncomputable section

open scoped BigOperators
open Idealize.ShloMosaic Idealize.ShloMosaic.ValueIdx

namespace Cert.KernelIdeal.TileBody

open Cert.KernelIdeal Cert.KernelIdeal.Gen

/-- The fused tile at row `p` and column `c`. -/
theorem fused_apply (x0 : Vec Ideal S2048x512 .f32) (x1 : Vec Ideal S512x1536 .bf16) (x2 : Vec Ideal S1536 .f32)
    (p : Fin 2048) (c : Fin 1536) :
    k0_pay7 (F := Ideal) x0 x1 x2 (ix2 p c) = (∑ k : Fin 512, x0 (ix2 p k) * x1 (ix2 k c)) + x2 (ix1 c) := by
  unfold k0_pay7
  refine (DenseBody.apply (d := dot_S2048x512_S512x1536_S2048x1536_1_0_0_1_n_n) ⟨rfl, rfl, rfl, rfl, rfl, rfl⟩ none _ _ _ _ p c).trans ?_
  rw [shapeCast_self, RowOfFlat.apply, shapeCast_self]
  rfl

/-- A band of 64 columns starting at column `c0`, regrouped as 1024 rows of 128 lanes under a unit leading axis:
    the entry at row `r`, lane `l` is the tile's entry at row `2 r + l / 64`, column `c0 + l % 64`. -/
theorem band_apply (c0 : ℕ) (v : S2048x1536.Idx → EReal) (hs : S2048x1536.Slices ![0, c0] S2048x64)
    (h1 : S2048x64.ShapeCasts S1024x128) (h2 : S1024x128.ShapeCasts S1x1024x128) (x : S1x1024x128.Idx)
    (p : Fin 2048) (c : Fin 1536) (hp : p.val = 2 * (x 1).val + (x 2).val / 64) (hc : c.val = c0 + (x 2).val % 64) :
    shapeCast S1x1024x128 (shapeCast S1024x128 (extractStridedSlice S2048x64 ![0, c0] v hs) h1) h2 x = v (ix2 p c) := by
  have hx0 : (x 0).val < 1 := (x 0).isLt
  have hx1 : (x 1).val < 1024 := (x 1).isLt
  have hx2 : (x 2).val < 128 := (x 2).isLt
  refine (ReshapeTwice.apply _ h1 h2 x
    (ix2 (⟨2 * (x 1).val + (x 2).val / 64, by omega⟩ : Fin 2048) (⟨(x 2).val % 64, by omega⟩ : Fin 64)) ?_).trans ?_
  · rw [Shape.rowMajor_val_two, Shape.rowMajor_val_three]
    show (2 * (x 1).val + (x 2).val / 64) * 64 + (x 2).val % 64 = ((x 0).val * 1024 + (x 1).val) * 128 + (x 2).val
    omega
  · refine extractStridedSlice_apply _ v hs _ (ix2 p c) fun a => ?_
    match a with
    | ⟨0, _⟩ => show p.val = 0 + (2 * (x 1).val + (x 2).val / 64); omega
    | ⟨1, _⟩ => show c.val = c0 + (x 2).val % 64; omega

end Cert.KernelIdeal.TileBody

end
-- ==== Proof.TileBlock.lean ====
/-
  One grid step's three result blocks as functions of the fused tile.

  A result block has 8 heads, 1024 rows and 128 lanes.  The body fills it head by head; head `h` of the block of the
  result whose band of columns starts at `base` receives the band of 64 columns starting at `base + 64 h`, regrouped
  two token rows to a row of lanes.  So the whole block is ONE function of the fused tile:
  entry (h, r, l) is the tile's entry at row `2 r + l / 64` and column `base + 64 h + l % 64`.
-/
import proofs.«115786_j17575006175259_2_alg».proof.Proof.Gen.KernelIdeal.Frame
import proofs.«115786_j17575006175259_2_alg».proof.Proof.TileBody
import Idealize.ShloMosaic.Lib.Pipeline.Value

set_option maxRecDepth 16384

noncomputable section

open scoped BigOperators
open Idealize.ShloMosaic Idealize.ShloMosaic.ValueIdx

namespace Cert.KernelIdeal.TileBlock

open Cert.KernelIdeal Cert.KernelIdeal.Gen Cert.KernelIdeal.TileBody

/-- Entry (h, r, l) of a result block: the tile's entry at row `2 r + l / 64`, column `base + 64 h + l % 64`. -/
def headBlock (base : ℕ) (hb : base + 512 ≤ 1536) (v : S2048x1536.Idx → EReal) : S8x1024x128.Idx → EReal :=
  fun y => v (ix2 (⟨2 * (y 1).val + (y 2).val / 64, by
      have h1 : (y 1).val < 1024 := (y 1).isLt
      have h2 : (y 2).val < 128 := (y 2).isLt
      omega⟩ : Fin 2048) (⟨base + 64 * (y 0).val + (y 2).val % 64, by
      have h0 : (y 0).val < 8 := (y 0).isLt
      omega⟩ : Fin 1536))

theorem zeros2 : (![0, 0] : Fin 2 → Nat) = fun _ => 0 := funext fun a => by fin_cases a <;> rfl
theorem zeros1 : (![0] : Fin 1 → Nat) = fun _ => 0 := funext fun a => by fin_cases a; rfl

/-- The band stored for head `h`, regrouped, is the head's slab of the block: at the slab's entry (0, r, l) placed
    at (h, r, l) in the block both read the tile at row `2 r + l / 64`, column `base + 64 h + l % 64`. -/
theorem band_at (base h c0 : ℕ) (hb : base + 512 ≤ 1536) (hh : h < 8) (hc0 : c0 = base + 64 * h)
    (v : S2048x1536.Idx → EReal) (hs : S2048x1536.Slices ![0, c0] S2048x64)
    (h1 : S2048x64.ShapeCasts S1024x128) (h2 : S1024x128.ShapeCasts S1x1024x128)
    (inb : ∀ a, (![h, 0, 0] : Fin 3 → Nat) a + S1x1024x128.size a ≤ S8x1024x128.size a) (x : S1x1024x128.Idx) :
    shapeCast S1x1024x128 (shapeCast S1024x128 (extractStridedSlice S2048x64 ![0, c0] v hs) h1) h2 x
      = headBlock base hb v ((Rect.unit (s := S8x1024x128) ![h, 0, 0] S1x1024x128.size inb).emb x) := by
  have hx0 : (x 0).val < 1 := (x 0).isLt
  unfold headBlock
  refine band_apply c0 v hs h1 h2 x _ _ ?_ ?_
  · show 2 * (0 + 1 * (x 1).val) + (0 + 1 * (x 2).val) / 64 = 2 * (x 1).val + (x 2).val / 64
    omega
  · show base + 64 * (h + 1 * (x 0).val) + (0 + 1 * (x 2).val) % 64 = c0 + (x 2).val % 64
    omega

/-- The query block: its eight stores, one per head, are the eight head slabs of one function of the fused tile. -/
theorem out3_eq (x0 : Vec Ideal S2048x512 .f32) (x1 : Vec Ideal S512x1536 .bf16) (x2 : Vec Ideal S1536 .f32) :
    out0_3 (F := Ideal) x0 x1 x2 = headBlock 0 (by norm_num) (k0_pay7 (F := Ideal) x0 x1 x2) := by
  funext y
  unfold out0_3
  simp only [View.ld_unit_zero (S := S2048x512) zeros2, View.ld_unit_zero (S := S512x1536) zeros2, View.ld_unit_zero (S := S1536) zeros1]
  refine View.canon_apply_of_pieces (Val := Elt Ideal) (headBlock 0 (by norm_num) (k0_pay7 (F := Ideal) x0 x1 x2)) _ ?_ y (cover0_3 _ _ _ _ _ _ _ _ y)
  intro pc hpc x
  simp only [List.mem_cons, List.not_mem_nil, or_false] at hpc
  rcases hpc with rfl | rfl | rfl | rfl | rfl | rfl | rfl | rfl
  · unfold k0_pay4; dsimp only; exact band_at 0 7 448 (by norm_num) (by norm_num) (by norm_num) _ _ _ _ _ x
  · unfold k0_pay1 k0_pay28; dsimp only; exact band_at 0 6 384 (by norm_num) (by norm_num) (by norm_num) _ _ _ _ _ x
  · unfold k0_pay25; dsimp only; exact band_at 0 5 320 (by norm_num) (by norm_num) (by norm_num) _ _ _ _ _ x
  · unfold k0_pay22; dsimp only; exact band_at 0 4 256 (by norm_num) (by norm_num) (by norm_num) _ _ _ _ _ x
  · unfold k0_pay18; dsimp only; exact band_at 0 3 192 (by norm_num) (by norm_num) (by norm_num) _ _ _ _ _ x
  · unfold k0_pay15; dsimp only; exact band_at 0 2 128 (by norm_num) (by norm_num) (by norm_num) _ _ _ _ _ x
  · unfold k0_pay11; dsimp only; exact band_at 0 1 64 (by norm_num) (by norm_num) (by norm_num) _ _ _ _ _ x
  · unfold k0_pay8; dsimp only; exact band_at 0 0 0 (by norm_num) (by norm_num) (by norm_num) _ _ _ _ _ x

/-- The key block: its eight stores, one per head, are the eight head slabs of one function of the fused tile. -/
theorem out4_eq (x0 : Vec Ideal S2048x512 .f32) (x1 : Vec Ideal S512x1536 .bf16) (x2 : Vec Ideal S1536 .f32) :
    out0_4 (F := Ideal) x0 x1 x2 = headBlock 512 (by norm_num) (k0_pay7 (F := Ideal) x0 x1 x2) := by
  funext y
  unfold out0_4
  simp only [View.ld_unit_zero (S := S2048x512) zeros2, View.ld_unit_zero (S := S512x1536) zeros2, View.ld_unit_zero (S := S1536) zeros1]
  refine View.canon_apply_of_pieces (Val := Elt Ideal) (headBlock 512 (by norm_num) (k0_pay7 (F := Ideal) x0 x1 x2)) _ ?_ y (cover0_4 _ _ _ _ _ _ _ _ y)
  intro pc hpc x
  simp only [List.mem_cons, List.not_mem_nil, or_false] at hpc
  rcases hpc with rfl | rfl | rfl | rfl | rfl | rfl | rfl | rfl
  · unfold k0_pay5; dsimp only; exact band_at 512 7 960 (by norm_num) (by norm_num) (by norm_num) _ _ _ _ _ x
  · unfold k0_pay2; dsimp only; exact band_at 512 6 896 (by norm_num) (by norm_num) (by norm_num) _ _ _ _ _ x
  · unfold k0_pay26; dsimp only; exact band_at 512 5 832 (by norm_num) (by norm_num) (by norm_num) _ _ _ _ _ x
  · unfold k0_pay23; dsimp only; exact band_at 512 4 768 (by norm_num) (by norm_num) (by norm_num) _ _ _ _ _ x
  · unfold k0_pay19; dsimp only; exact band_at 512 3 704 (by norm_num) (by norm_num) (by norm_num) _ _ _ _ _ x
  · unfold k0_pay16; dsimp only; exact band_at 512 2 640 (by norm_num) (by norm_num) (by norm_num) _ _ _ _ _ x
  · unfold k0_pay13 k0_pay12; dsimp only; exact band_at 512 1 576 (by norm_num) (by norm_num) (by norm_num) _ _ _ _ _ x
  · unfold k0_pay9; dsimp only; exact band_at 512 0 512 (by norm_num) (by norm_num) (by norm_num) _ _ _ _ _ x

/-- The value block: its eight stores, one per head, are the eight head slabs of one function of the fused tile. -/
theorem out5_eq (x0 : Vec Ideal S2048x512 .f32) (x1 : Vec Ideal S512x1536 .bf16) (x2 : Vec Ideal S1536 .f32) :
    out0_5 (F := Ideal) x0 x1 x2 = headBlock 1024 (by norm_num) (k0_pay7 (F := Ideal) x0 x1 x2) := by
  funext y
  unfold out0_5
  simp only [View.ld_unit_zero (S := S2048x512) zeros2, View.ld_unit_zero (S := S512x1536) zeros2, View.ld_unit_zero (S := S1536) zeros1]
  refine View.canon_apply_of_pieces (Val := Elt Ideal) (headBlock 1024 (by norm_num) (k0_pay7 (F := Ideal) x0 x1 x2)) _ ?_ y (cover0_5 _ _ _ _ _ _ _ _ y)
  intro pc hpc x
  simp only [List.mem_cons, List.not_mem_nil, or_false] at hpc
  rcases hpc with rfl | rfl | rfl | rfl | rfl | rfl | rfl | rfl
  · unfold k0_pay6; dsimp only; exact band_at 1024 7 1472 (by norm_num) (by norm_num) (by norm_num) _ _ _ _ _ x
  · unfold k0_pay3; dsimp only; exact band_at 1024 6 1408 (by norm_num) (by norm_num) (by norm_num) _ _ _ _ _ x
  · unfold k0_pay27; dsimp only; exact band_at 1024 5 1344 (by norm_num) (by norm_num) (by norm_num) _ _ _ _ _ x
  · unfold k0_pay24; dsimp only; exact band_at 1024 4 1280 (by norm_num) (by norm_num) (by norm_num) _ _ _ _ _ x
  · unfold k0_pay21 k0_pay20; dsimp only; exact band_at 1024 3 1216 (by norm_num) (by norm_num) (by norm_num) _ _ _ _ _ x
  · unfold k0_pay17; dsimp only; exact band_at 1024 2 1152 (by norm_num) (by norm_num) (by norm_num) _ _ _ _ _ x
  · unfold k0_pay14; dsimp only; exact band_at 1024 1 1088 (by norm_num) (by norm_num) (by norm_num) _ _ _ _ _ x
  · unfold k0_pay10; dsimp only; exact band_at 1024 0 1024 (by norm_num) (by norm_num) (by norm_num) _ _ _ _ _ x

end Cert.KernelIdeal.TileBlock

end
-- ==== Proof.Arrays.lean ====
/-
  From the grid steps' blocks to the three result arrays, over the extended reals.

  Grid step `t` reads token rows `2048 t … 2048 t + 2047`, the whole fused weight and the whole fused bias, and
  writes rows `1024 t … 1024 t + 1023` of all eight heads of each result array.  What it writes is the matching
  block of ONE function of the arrays the region finds — the paired layout of the head-split projection (two
  consecutive tokens to a row of 128 lanes) — and the 32 blocks tile each array, so each array ends holding that
  function.
-/
import proofs.«115786_j17575006175259_2_alg».proof.Proof.Gen.KernelIdeal.Frame
import proofs.«115786_j17575006175259_2_alg».proof.Proof.TileBlock
import proofs.«115786_j17575006175259_2_alg».proof.Proof.HeadSplit
import Idealize.ShloMosaic.Lib.Pipeline.Value

set_option maxRecDepth 16384

noncomputable section

open scoped BigOperators
open Idealize.ShloMosaic Idealize.ShloMosaic.TcCoe Idealize.ShloMosaic.ValueIdx
open Idealize.SL.Sem
open Idealize.ShloMosaic.Pipeline (Dat)

namespace Cert.KernelIdeal.Arrays

open Cert.KernelIdeal Cert.KernelIdeal.Gen Cert.KernelIdeal.TileBody Cert.KernelIdeal.TileBlock HeadSplit

variable (m : (ℓ : Loc nD τ sig) → Buf (Elt Ideal) ℓ)

/-- Where each window's block sits at step `t`, as block indices per axis. -/
structure BlockIndices (t : Fin cfg0.N) : Prop where
  tokens : win0_0.index t (0 : Fin 2) = t.val ∧ win0_0.index t (1 : Fin 2) = 0
  weight : win0_1.index t (0 : Fin 2) = 0 ∧ win0_1.index t (1 : Fin 2) = 0
  bias : win0_2.index t (0 : Fin 1) = 0
  out3 : win0_3.index t (0 : Fin 3) = 0 ∧ win0_3.index t (1 : Fin 3) = t.val ∧ win0_3.index t (2 : Fin 3) = 0
  out4 : win0_4.index t (0 : Fin 3) = 0 ∧ win0_4.index t (1 : Fin 3) = t.val ∧ win0_4.index t (2 : Fin 3) = 0
  out5 : win0_5.index t (0 : Fin 3) = 0 ∧ win0_5.index t (1 : Fin 3) = t.val ∧ win0_5.index t (2 : Fin 3) = 0

/-- The printed index maps, decided over the 32 steps. -/
theorem idx_facts_raw : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ win0_2.index t (0 : Fin 1) = 0
    ∧ (win0_3.index t (0 : Fin 3) = 0 ∧ win0_3.index t (1 : Fin 3) = t.val ∧ win0_3.index t (2 : Fin 3) = 0)
    ∧ (win0_4.index t (0 : Fin 3) = 0 ∧ win0_4.index t (1 : Fin 3) = t.val ∧ win0_4.index t (2 : Fin 3) = 0)
    ∧ (win0_5.index t (0 : Fin 3) = 0 ∧ win0_5.index t (1 : Fin 3) = t.val ∧ win0_5.index t (2 : Fin 3) = 0) :=
  (by decide +kernel : ∀ t : Fin grid0.N, _)

theorem idx_facts (t : Fin cfg0.N) : BlockIndices t :=
  let ⟨a, b, c, d, e, f⟩ := idx_facts_raw t
  ⟨a, b, c, d, e, f⟩

/-! ## The input blocks -/

/-- The token block at step `t` is rows `2048 t … 2048 t + 2047` of the token array. -/
theorem tokens_blk (c : Dev nD) (t : Fin cfg0.N) (z : S2048x512.Idx) (k : S65536x512.Idx)
    (hk0 : (k 0).val = 2048 * t.val + (z 0).val) (hk1 : (k 1).val = (z 1).val) :
    (iblk m c 0 t : Vec Ideal S2048x512 .f32) z = (V m c main_arg0 : Vec Ideal S65536x512 .f32) k := by
  have e := idx_facts t
  unfold iblk
  rw [View.read_apply]
  show V m c main_arg0 _ = V m c main_arg0 _
  refine congrArg (V m c main_arg0 : Vec Ideal S65536x512 .f32) ?_
  funext a
  apply Fin.ext
  match a with
  | ⟨0, _⟩ => show win0_0.index t (0 : Fin 2) * 2048 + 1 * (z 0).val = (k 0).val; rw [e.tokens.1, hk0]; omega
  | ⟨1, _⟩ => show win0_0.index t (1 : Fin 2) * 512 + 1 * (z 1).val = (k 1).val; rw [e.tokens.2, hk1]; omega

/-- The weight block at every step is the whole fused weight. -/
theorem weight_blk (c : Dev nD) (t : Fin cfg0.N) :
    (iblk m c 1 t : Vec Ideal S512x1536 .bf16) = (V m c main_v2 : Vec Ideal S512x1536 .bf16) := by
  have e := idx_facts t
  funext z
  unfold iblk
  rw [View.read_apply]
  show V m c main_v2 _ = V m c main_v2 z
  refine congrArg (V m c main_v2 : Vec Ideal S512x1536 .bf16) ?_
  funext a
  apply Fin.ext
  match a with
  | ⟨0, _⟩ => show win0_1.index t (0 : Fin 2) * 512 + 1 * (z 0).val = (z 0).val; rw [e.weight.1]; omega
  | ⟨1, _⟩ => show win0_1.index t (1 : Fin 2) * 1536 + 1 * (z 1).val = (z 1).val; rw [e.weight.2]; omega

/-- The bias block at every step is the whole fused bias. -/
theorem bias_blk (c : Dev nD) (t : Fin cfg0.N) :
    (iblk m c 2 t : Vec Ideal S1536 .f32) = (V m c main_v3 : Vec Ideal S1536 .f32) := by
  have e := idx_facts t
  funext z
  unfold iblk
  rw [View.read_apply]
  show V m c main_v3 _ = V m c main_v3 z
  refine congrArg (V m c main_v3 : Vec Ideal S1536 .f32) ?_
  funext a
  apply Fin.ext
  match a with
  | ⟨0, _⟩ => show win0_2.index t (0 : Fin 1) * 1536 + 1 * (z 0).val = (z 0).val; rw [e.bias]; omega

/-! ## One entry of a block -/

/-- Entry (h, r, l) of the block computed from the token rows `2048 τ …` is entry (h, 1024 τ + r, l) of the paired
    layout: both are token `2048 τ + 2 r + l / 64` against output feature `base + 64 h + l % 64`. -/
theorem block_entry (base : ℕ) (hb : base + 512 ≤ 1536) (X : Vec Ideal S65536x512 .f32) (b0 : Vec Ideal S2048x512 .f32)
    (WT : Vec Ideal S512x1536 .bf16) (B : Vec Ideal S1536 .f32) (τ' : ℕ) (y : S8x1024x128.Idx) (i : S8x32768x128.Idx)
    (h0 : ∀ (z : S2048x512.Idx) (k : S65536x512.Idx), (k 0).val = 2048 * τ' + (z 0).val → (k 1).val = (z 1).val → b0 z = X k)
    (hi0 : (i 0).val = (y 0).val) (hi1 : (i 1).val = 1024 * τ' + (y 1).val) (hi2 : (i 2).val = (y 2).val) :
    headBlock base hb (k0_pay7 (F := Ideal) b0 WT B) y = pairedProj base hb X WT B i := by
  have hy0 : (y 0).val < 8 := (y 0).isLt
  have hy1 : (y 1).val < 1024 := (y 1).isLt
  have hy2 : (y 2).val < 128 := (y 2).isLt
  have hi1' : (i 1).val < 32768 := (i 1).isLt
  rw [pairedProj_apply base hb X WT B i (⟨2 * (i 1).val + (i 2).val / 64, by omega⟩ : Fin 65536)
    (⟨base + 64 * (y 0).val + (y 2).val % 64, by omega⟩ : Fin 1536) rfl (by show _ = _; rw [hi0, hi2])]
  unfold headBlock
  rw [fused_apply]
  refine congrArg₂ (· + ·) (Finset.sum_congr rfl fun k _ => congrArg (· * WT (ix2 k _)) ?_) rfl
  refine h0 _ _ ?_ rfl
  show 2 * (i 1).val + (i 2).val / 64 = 2048 * τ' + (2 * (y 1).val + (y 2).val / 64)
  rw [hi1, hi2]; omega

/-! ## The query array (window 3) -/

/-- What grid step `t` writes back is block `t` of the paired layout of the query projection. -/
theorem flushed3_eq (c : Dev nD) (t : Fin cfg0.N) :
    (dats m 0 c).flushed 3 t = ((cfg0.win 3).blk t).view.read (Elt Ideal)
      (pairedProj 0 (by norm_num) (V m c main_arg0) (V m c main_v2) (V m c main_v3)) := by
  show (cfg0.win 3).cut (grid0.coords t) ((dats m 0 c).after 3 t) = _
  rw [after0_3, out3_eq (iblk m c 0 t) (iblk m c 1 t) (iblk m c 2 t), weight_blk m c t, bias_blk m c t]
  have e := idx_facts t
  funext y
  show headBlock 0 _ (k0_pay7 (F := Ideal) (iblk m c 0 t) (V m c main_v2) (V m c main_v3)) y
    = pairedProj 0 _ (V m c main_arg0) (V m c main_v2) (V m c main_v3) (((cfg0.win 3).blk t).view.emb y)
  refine block_entry 0 _ (V m c main_arg0) (iblk m c 0 t) (V m c main_v2) (V m c main_v3) t.val y _
    (fun z k => tokens_blk m c t z k) ?_ ?_ ?_
  · show win0_3.index t (0 : Fin 3) * 8 + 1 * (y 0).val = (y 0).val
    rw [e.out3.1]; omega
  · show win0_3.index t (1 : Fin 3) * 1024 + 1 * (y 1).val = 1024 * t.val + (y 1).val
    rw [e.out3.2.1]; omega
  · show win0_3.index t (2 : Fin 3) * 128 + 1 * (y 2).val = (y 2).val
    rw [e.out3.2.2]; omega

/-- An index of the array is in step `t`'s block iff each coordinate is in the block's range on its axis. -/
theorem mem_blk3 (t : Fin cfg0.N) (i : S8x32768x128.Idx) :
    i ∈ ((cfg0.win 3).blk t).view.set ↔ ∀ a : Fin 3, win0_3.index t a * S8x1024x128.size a ≤ (i a).val
      ∧ (i a).val < win0_3.index t a * S8x1024x128.size a + S8x1024x128.size a := by
  show i ∈ ((View.whole main_v4_0).slice (win0_3.rect t)).set ↔ _
  rw [View.set_slice_whole, Rect.mem_set_unit]
  exact Iff.rfl

/-- Row `r` of the array lies in the block of step `r / 1024`: the 32 blocks tile the array. -/
theorem cover3 (i : S8x32768x128.Idx) :
    ∃ t : Fin cfg0.N, (cfg0.win 3).flush t = true ∧ i ∈ ((cfg0.win 3).blk t).view.set := by
  have h0 : (i 0).val < 8 := (i 0).isLt
  have h1 : (i 1).val < 32768 := (i 1).isLt
  have h2 : (i 2).val < 128 := (i 2).isLt
  obtain ⟨t, ht⟩ : ∃ t : Fin cfg0.N, t.val = (i 1).val / 1024 := ⟨⟨(i 1).val / 1024, by rw [show cfg0.N = 32 from N_0]; omega⟩, rfl⟩
  have e := idx_facts t
  refine ⟨t, flush0_3 t, ?_⟩
  rw [mem_blk3]
  intro a
  match a with
  | ⟨0, _⟩ =>
    show win0_3.index t (0 : Fin 3) * 8 ≤ (i 0).val ∧ (i 0).val < win0_3.index t (0 : Fin 3) * 8 + 8
    rw [e.out3.1]; omega
  | ⟨1, _⟩ =>
    show win0_3.index t (1 : Fin 3) * 1024 ≤ (i 1).val ∧ (i 1).val < win0_3.index t (1 : Fin 3) * 1024 + 1024
    rw [e.out3.2.1, ht]; omega
  | ⟨2, _⟩ =>
    show win0_3.index t (2 : Fin 3) * 128 ≤ (i 2).val ∧ (i 2).val < win0_3.index t (2 : Fin 3) * 128 + 128
    rw [e.out3.2.2]; omega

/-- After the run the array holds the paired layout of the query projection. -/
theorem final3 (c : Dev nD) : (dats m 0 c).arrAt 3 cfg0.N
    = pairedProj 0 (by norm_num) (V m c main_arg0) (V m c main_v2) (V m c main_v3) :=
  (dats m 0 c).arrAt_eq_of_cover 3 _ (fun t _ => flushed3_eq m c t) (cover3)

/-! ## The key array (window 4) -/

/-- What grid step `t` writes back is block `t` of the paired layout of the key projection. -/
theorem flushed4_eq (c : Dev nD) (t : Fin cfg0.N) :
    (dats m 0 c).flushed 4 t = ((cfg0.win 4).blk t).view.read (Elt Ideal)
      (pairedProj 512 (by norm_num) (V m c main_arg0) (V m c main_v2) (V m c main_v3)) := by
  show (cfg0.win 4).cut (grid0.coords t) ((dats m 0 c).after 4 t) = _
  rw [after0_4, out4_eq (iblk m c 0 t) (iblk m c 1 t) (iblk m c 2 t), weight_blk m c t, bias_blk m c t]
  have e := idx_facts t
  funext y
  show headBlock 512 _ (k0_pay7 (F := Ideal) (iblk m c 0 t) (V m c main_v2) (V m c main_v3)) y
    = pairedProj 512 _ (V m c main_arg0) (V m c main_v2) (V m c main_v3) (((cfg0.win 4).blk t).view.emb y)
  refine block_entry 512 _ (V m c main_arg0) (iblk m c 0 t) (V m c main_v2) (V m c main_v3) t.val y _
    (fun z k => tokens_blk m c t z k) ?_ ?_ ?_
  · show win0_4.index t (0 : Fin 3) * 8 + 1 * (y 0).val = (y 0).val
    rw [e.out4.1]; omega
  · show win0_4.index t (1 : Fin 3) * 1024 + 1 * (y 1).val = 1024 * t.val + (y 1).val
    rw [e.out4.2.1]; omega
  · show win0_4.index t (2 : Fin 3) * 128 + 1 * (y 2).val = (y 2).val
    rw [e.out4.2.2]; omega

/-- An index of the array is in step `t`'s block iff each coordinate is in the block's range on its axis. -/
theorem mem_blk4 (t : Fin cfg0.N) (i : S8x32768x128.Idx) :
    i ∈ ((cfg0.win 4).blk t).view.set ↔ ∀ a : Fin 3, win0_4.index t a * S8x1024x128.size a ≤ (i a).val
      ∧ (i a).val < win0_4.index t a * S8x1024x128.size a + S8x1024x128.size a := by
  show i ∈ ((View.whole main_v4_1).slice (win0_4.rect t)).set ↔ _
  rw [View.set_slice_whole, Rect.mem_set_unit]
  exact Iff.rfl

/-- Row `r` of the array lies in the block of step `r / 1024`: the 32 blocks tile the array. -/
theorem cover4 (i : S8x32768x128.Idx) :
    ∃ t : Fin cfg0.N, (cfg0.win 4).flush t = true ∧ i ∈ ((cfg0.win 4).blk t).view.set := by
  have h0 : (i 0).val < 8 := (i 0).isLt
  have h1 : (i 1).val < 32768 := (i 1).isLt
  have h2 : (i 2).val < 128 := (i 2).isLt
  obtain ⟨t, ht⟩ : ∃ t : Fin cfg0.N, t.val = (i 1).val / 1024 := ⟨⟨(i 1).val / 1024, by rw [show cfg0.N = 32 from N_0]; omega⟩, rfl⟩
  have e := idx_facts t
  refine ⟨t, flush0_4 t, ?_⟩
  rw [mem_blk4]
  intro a
  match a with
  | ⟨0, _⟩ =>
    show win0_4.index t (0 : Fin 3) * 8 ≤ (i 0).val ∧ (i 0).val < win0_4.index t (0 : Fin 3) * 8 + 8
    rw [e.out4.1]; omega
  | ⟨1, _⟩ =>
    show win0_4.index t (1 : Fin 3) * 1024 ≤ (i 1).val ∧ (i 1).val < win0_4.index t (1 : Fin 3) * 1024 + 1024
    rw [e.out4.2.1, ht]; omega
  | ⟨2, _⟩ =>
    show win0_4.index t (2 : Fin 3) * 128 ≤ (i 2).val ∧ (i 2).val < win0_4.index t (2 : Fin 3) * 128 + 128
    rw [e.out4.2.2]; omega

/-- After the run the array holds the paired layout of the key projection. -/
theorem final4 (c : Dev nD) : (dats m 0 c).arrAt 4 cfg0.N
    = pairedProj 512 (by norm_num) (V m c main_arg0) (V m c main_v2) (V m c main_v3) :=
  (dats m 0 c).arrAt_eq_of_cover 4 _ (fun t _ => flushed4_eq m c t) (cover4)

/-! ## The value array (window 5) -/

/-- What grid step `t` writes back is block `t` of the paired layout of the value projection. -/
theorem flushed5_eq (c : Dev nD) (t : Fin cfg0.N) :
    (dats m 0 c).flushed 5 t = ((cfg0.win 5).blk t).view.read (Elt Ideal)
      (pairedProj 1024 (by norm_num) (V m c main_arg0) (V m c main_v2) (V m c main_v3)) := by
  show (cfg0.win 5).cut (grid0.coords t) ((dats m 0 c).after 5 t) = _
  rw [after0_5, out5_eq (iblk m c 0 t) (iblk m c 1 t) (iblk m c 2 t), weight_blk m c t, bias_blk m c t]
  have e := idx_facts t
  funext y
  show headBlock 1024 _ (k0_pay7 (F := Ideal) (iblk m c 0 t) (V m c main_v2) (V m c main_v3)) y
    = pairedProj 1024 _ (V m c main_arg0) (V m c main_v2) (V m c main_v3) (((cfg0.win 5).blk t).view.emb y)
  refine block_entry 1024 _ (V m c main_arg0) (iblk m c 0 t) (V m c main_v2) (V m c main_v3) t.val y _
    (fun z k => tokens_blk m c t z k) ?_ ?_ ?_
  · show win0_5.index t (0 : Fin 3) * 8 + 1 * (y 0).val = (y 0).val
    rw [e.out5.1]; omega
  · show win0_5.index t (1 : Fin 3) * 1024 + 1 * (y 1).val = 1024 * t.val + (y 1).val
    rw [e.out5.2.1]; omega
  · show win0_5.index t (2 : Fin 3) * 128 + 1 * (y 2).val = (y 2).val
    rw [e.out5.2.2]; omega

/-- An index of the array is in step `t`'s block iff each coordinate is in the block's range on its axis. -/
theorem mem_blk5 (t : Fin cfg0.N) (i : S8x32768x128.Idx) :
    i ∈ ((cfg0.win 5).blk t).view.set ↔ ∀ a : Fin 3, win0_5.index t a * S8x1024x128.size a ≤ (i a).val
      ∧ (i a).val < win0_5.index t a * S8x1024x128.size a + S8x1024x128.size a := by
  show i ∈ ((View.whole main_v4_2).slice (win0_5.rect t)).set ↔ _
  rw [View.set_slice_whole, Rect.mem_set_unit]
  exact Iff.rfl

/-- Row `r` of the array lies in the block of step `r / 1024`: the 32 blocks tile the array. -/
theorem cover5 (i : S8x32768x128.Idx) :
    ∃ t : Fin cfg0.N, (cfg0.win 5).flush t = true ∧ i ∈ ((cfg0.win 5).blk t).view.set := by
  have h0 : (i 0).val < 8 := (i 0).isLt
  have h1 : (i 1).val < 32768 := (i 1).isLt
  have h2 : (i 2).val < 128 := (i 2).isLt
  obtain ⟨t, ht⟩ : ∃ t : Fin cfg0.N, t.val = (i 1).val / 1024 := ⟨⟨(i 1).val / 1024, by rw [show cfg0.N = 32 from N_0]; omega⟩, rfl⟩
  have e := idx_facts t
  refine ⟨t, flush0_5 t, ?_⟩
  rw [mem_blk5]
  intro a
  match a with
  | ⟨0, _⟩ =>
    show win0_5.index t (0 : Fin 3) * 8 ≤ (i 0).val ∧ (i 0).val < win0_5.index t (0 : Fin 3) * 8 + 8
    rw [e.out5.1]; omega
  | ⟨1, _⟩ =>
    show win0_5.index t (1 : Fin 3) * 1024 ≤ (i 1).val ∧ (i 1).val < win0_5.index t (1 : Fin 3) * 1024 + 1024
    rw [e.out5.2.1, ht]; omega
  | ⟨2, _⟩ =>
    show win0_5.index t (2 : Fin 3) * 128 ≤ (i 2).val ∧ (i 2).val < win0_5.index t (2 : Fin 3) * 128 + 128
    rw [e.out5.2.2]; omega

/-- After the run the array holds the paired layout of the value projection. -/
theorem final5 (c : Dev nD) : (dats m 0 c).arrAt 5 cfg0.N
    = pairedProj 1024 (by norm_num) (V m c main_arg0) (V m c main_v2) (V m c main_v3) :=
  (dats m 0 c).arrAt_eq_of_cover 5 _ (fun t _ => flushed5_eq m c t) (cover5)

end Cert.KernelIdeal.Arrays

end
-- ==== Proof.HostSides.lean ====
/-
  The host operations around the kernel, read entry by entry over the extended reals.

  Before the kernel the three weights are stacked into one matrix of 1536 output features (rows 0 … 511 the query
  weight, rows 512 … 1535 the key-and-value weight), transposed, and narrowed (the identity on extended reals); the
  biases are stacked alike.  So the fused transposed weight at (k, c) is the query weight at (c, k) for c < 512 and
  the key-and-value weight at (c - 512, k) from 512 on.  After the kernel each result array, 32768 rows of 128 lanes
  per head, is re-read in row-major order as 65536 rows of 64: one token to a row.
-/
import proofs.«115786_j17575006175259_2_alg».proof.Proof.Gen.KernelIdeal.Frame
import proofs.«115786_j17575006175259_2_alg».proof.Proof.Arrays
import proofs.«115786_j17575006175259_2_alg».proof.Proof.HeadSplit
import Idealize.ShloMosaic.Lib.StableHlo.Run
import Idealize.ShloMosaic.Lib.Pipeline.Value

set_option maxRecDepth 16384

noncomputable section

open scoped BigOperators
open Idealize.ShloMosaic Idealize.ShloMosaic.TcCoe Idealize.ShloMosaic.ValueIdx
open Idealize.SL.Sem

namespace Cert.KernelIdeal.HostSides

open Cert.KernelIdeal Cert.KernelIdeal.Gen HeadSplit

variable (m : (ℓ : Loc nD τ sig) → Buf (Elt Ideal) ℓ)

/-! ## The fused weight and bias the region finds -/

theorem fusedWeight_eq (c : Dev nD) :
    (V m c main_v2 : Vec Ideal S512x1536 .bf16)
      = truncf (F := Ideal) .bf16 (transpose S512x1536 [1, 0]
          (concatenate S1536x512 0 [⟨S512x512, m ((c : Thread nD τ).loc main_arg1)⟩, ⟨S1024x512, m ((c : Thread nD τ).loc main_arg3)⟩]
            concatenates_S512x512_S1024x512_S1536x512_d0) transposes_S1536x512_S512x1536_1_0) bitsLt_bf16_f32 := by
  show StableHlo.after hostOps0 (fun b => m (c, b)) (Proc.devRef .tc main_v2) = _
  after_results <;> rfl

theorem fusedBias_eq (c : Dev nD) :
    (V m c main_v3 : Vec Ideal S1536 .f32)
      = concatenate S1536 0 [⟨S512, m ((c : Thread nD τ).loc main_arg2)⟩, ⟨S1024, m ((c : Thread nD τ).loc main_arg4)⟩]
          concatenates_S512_S1024_S1536_d0 := by
  show StableHlo.after hostOps0 (fun b => m (c, b)) (Proc.devRef .tc main_v3) = _
  after_results <;> rfl

/-- Output features below 512 are the query weight's rows. -/
theorem fusedWeight_query (c : Dev nD) (k : Fin 512) (col : Fin 1536) (r : Fin 512) (hr : r.val = col.val) :
    (V m c main_v2 : Vec Ideal S512x1536 .bf16) (ix2 k col)
      = (m ((c : Thread nD τ).loc main_arg1) : Vec Ideal S512x512 .f32) (ix2 r k) := by
  rw [fusedWeight_eq]
  rw [truncf_apply]
  refine (transpose_apply (s := S1536x512) (t := S512x1536) [1, 0] _ _ (ix2 k col) (ix2 col k) (fun b => match b with | ⟨0, _⟩ => rfl | ⟨1, _⟩ => rfl)).trans ?_
  exact concatenate_pair_apply_left (t := S1536x512) (s₁ := S512x512) (s₂ := S1024x512) (0 : Fin 2) _ _ _ (ix2 col k) rfl (ix2 r k)
    (fun b => match b with | ⟨0, _⟩ => hr | ⟨1, _⟩ => rfl)

/-- Output features from 512 on are the key-and-value weight's rows, 512 rows down. -/
theorem fusedWeight_kv (c : Dev nD) (k : Fin 512) (col : Fin 1536) (r : Fin 1024) (hr : r.val + 512 = col.val) :
    (V m c main_v2 : Vec Ideal S512x1536 .bf16) (ix2 k col)
      = (m ((c : Thread nD τ).loc main_arg3) : Vec Ideal S1024x512 .f32) (ix2 r k) := by
  rw [fusedWeight_eq]
  rw [truncf_apply]
  refine (transpose_apply (s := S1536x512) (t := S512x1536) [1, 0] _ _ (ix2 k col) (ix2 col k) (fun b => match b with | ⟨0, _⟩ => rfl | ⟨1, _⟩ => rfl)).trans ?_
  exact concatenate_pair_apply_right (t := S1536x512) (s₁ := S512x512) (s₂ := S1024x512) (0 : Fin 2) _ _ _ (ix2 col k) rfl rfl (ix2 r k)
    (fun b hb => match b, hb with | ⟨0, _⟩, hb => absurd rfl hb | ⟨1, _⟩, _ => rfl) hr

theorem fusedBias_query (c : Dev nD) (col : Fin 1536) (r : Fin 512) (hr : r.val = col.val) :
    (V m c main_v3 : Vec Ideal S1536 .f32) (ix1 col) = (m ((c : Thread nD τ).loc main_arg2) : Vec Ideal S512 .f32) (ix1 r) := by
  rw [fusedBias_eq]
  exact concatenate_pair_apply_left (t := S1536) (s₁ := S512) (s₂ := S1024) (0 : Fin 1) _ _ _ (ix1 col) rfl (ix1 r) (fun b => match b with | ⟨0, _⟩ => hr)

theorem fusedBias_kv (c : Dev nD) (col : Fin 1536) (r : Fin 1024) (hr : r.val + 512 = col.val) :
    (V m c main_v3 : Vec Ideal S1536 .f32) (ix1 col) = (m ((c : Thread nD τ).loc main_arg4) : Vec Ideal S1024 .f32) (ix1 r) := by
  rw [fusedBias_eq]
  exact concatenate_pair_apply_right (t := S1536) (s₁ := S512) (s₂ := S1024) (0 : Fin 1) _ _ _ (ix1 col) rfl rfl (ix1 r)
    (fun b hb => match b, hb with | ⟨0, _⟩, hb => absurd rfl hb) hr

/-! ## The three results -/

/-- The query result: the array of window 3, re-read in row-major order with one token to a row, is the head-split
    projection of the tokens on the band at 0 of the query weight. -/
theorem queries (c : Dev nD) :
    Pipeline.afterTail₀ cfgs (dats m) 0 (V0 m) [hostOps1] c main_v5
      = headProj 0 (by norm_num) (m ((c : Thread nD τ).loc main_arg0)) (m ((c : Thread nD τ).loc main_arg1)) (m ((c : Thread nD τ).loc main_arg2)) := by
  have tail : Pipeline.afterTail₀ cfgs (dats m) 0 (V0 m) [hostOps1] c main_v5
      = shapeCast S8x65536x64 ((dats m 0 c).arrAt 3 cfg0.N) shapeCasts_S8x32768x128_S8x65536x64 := by
    unfold Pipeline.afterTail₀
    show StableHlo.after hostOps1 _ (Proc.devRef .tc main_v5) = _
    after_results
    exact congrArg (shapeCast S8x65536x64 · shapeCasts_S8x32768x128_S8x65536x64)
      (Pipeline.withArrays_arr spec0 launch0.win.arr_inj c _ _ 3)
  rw [tail, Arrays.final3 m c, V_main_arg0 m c]
  exact (unpair 0 (by norm_num) _ _ _ _).trans
    (fusedProj_eq_headProj 0 0 (by norm_num) (by norm_num) _ _ _ _ _
      (fun h d k => fusedWeight_query m c k _ _ rfl)
      (fun h d => fusedBias_query m c _ _ rfl))

/-- The key result: the array of window 4, re-read in row-major order with one token to a row, is the head-split
    projection of the tokens on the band at 0 of the key-and-value weight. -/
theorem keys (c : Dev nD) :
    Pipeline.afterTail₀ cfgs (dats m) 0 (V0 m) [hostOps1] c main_v6
      = headProj 0 (by norm_num) (m ((c : Thread nD τ).loc main_arg0)) (m ((c : Thread nD τ).loc main_arg3)) (m ((c : Thread nD τ).loc main_arg4)) := by
  have tail : Pipeline.afterTail₀ cfgs (dats m) 0 (V0 m) [hostOps1] c main_v6
      = shapeCast S8x65536x64 ((dats m 0 c).arrAt 4 cfg0.N) shapeCasts_S8x32768x128_S8x65536x64 := by
    unfold Pipeline.afterTail₀
    show StableHlo.after hostOps1 _ (Proc.devRef .tc main_v6) = _
    after_results
    exact congrArg (shapeCast S8x65536x64 · shapeCasts_S8x32768x128_S8x65536x64)
      (Pipeline.withArrays_arr spec0 launch0.win.arr_inj c _ _ 4)
  rw [tail, Arrays.final4 m c, V_main_arg0 m c]
  exact (unpair 512 (by norm_num) _ _ _ _).trans
    (fusedProj_eq_headProj 512 0 (by norm_num) (by norm_num) _ _ _ _ _
      (fun h d k => fusedWeight_kv m c k _ _ (by show 0 + 64 * h.val + d.val + 512 = 512 + 64 * h.val + d.val; omega))
      (fun h d => fusedBias_kv m c _ _ (by show 0 + 64 * h.val + d.val + 512 = 512 + 64 * h.val + d.val; omega)))

/-- The value result: the array of window 5, re-read in row-major order with one token to a row, is the head-split
    projection of the tokens on the band at 512 of the key-and-value weight. -/
theorem values (c : Dev nD) :
    Pipeline.afterTail₀ cfgs (dats m) 0 (V0 m) [hostOps1] c main_v7
      = headProj 512 (by norm_num) (m ((c : Thread nD τ).loc main_arg0)) (m ((c : Thread nD τ).loc main_arg3)) (m ((c : Thread nD τ).loc main_arg4)) := by
  have tail : Pipeline.afterTail₀ cfgs (dats m) 0 (V0 m) [hostOps1] c main_v7
      = shapeCast S8x65536x64 ((dats m 0 c).arrAt 5 cfg0.N) shapeCasts_S8x32768x128_S8x65536x64 := by
    unfold Pipeline.afterTail₀
    show StableHlo.after hostOps1 _ (Proc.devRef .tc main_v7) = _
    after_results
    exact congrArg (shapeCast S8x65536x64 · shapeCasts_S8x32768x128_S8x65536x64)
      (Pipeline.withArrays_arr spec0 launch0.win.arr_inj c _ _ 5)
  rw [tail, Arrays.final5 m c, V_main_arg0 m c]
  exact (unpair 1024 (by norm_num) _ _ _ _).trans
    (fusedProj_eq_headProj 1024 512 (by norm_num) (by norm_num) _ _ _ _ _
      (fun h d k => fusedWeight_kv m c k _ _ (by show 512 + 64 * h.val + d.val + 512 = 1024 + 64 * h.val + d.val; omega))
      (fun h d => fusedBias_kv m c _ _ (by show 512 + 64 * h.val + d.val + 512 = 1024 + 64 * h.val + d.val; omega)))

end Cert.KernelIdeal.HostSides

end
-- ==== Proof.KernelRun.lean ====
/-
  The kernel's run, read: every weakly fair execution ends with the three results holding the head-split
  projections of the token array on the query weight and on the two halves of the key-and-value weight, and with
  the five arguments as they were.
-/
import proofs.«115786_j17575006175259_2_alg».proof.Proof.Gen.KernelIdeal.Frame
import proofs.«115786_j17575006175259_2_alg».proof.Proof.HostSides

noncomputable section

open Idealize.ShloMosaic Idealize.ShloMosaic.TcCoe Idealize.ShloMosaic.ValueIdx
open Idealize.SL.Sem

namespace Cert.KernelIdeal.KernelRun

open Cert.KernelIdeal Cert.KernelIdeal.Gen HeadSplit

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v5)
        = headProj 0 (by norm_num) (m ((c.tc : Thread nD τ).loc main_arg0)) (m ((c.tc : Thread nD τ).loc main_arg1)) (m ((c.tc : Thread nD τ).loc main_arg2))
      ∧ r.2.mem ((c.tc : Thread nD τ).loc main_v6)
        = headProj 0 (by norm_num) (m ((c.tc : Thread nD τ).loc main_arg0)) (m ((c.tc : Thread nD τ).loc main_arg3)) (m ((c.tc : Thread nD τ).loc main_arg4))
      ∧ r.2.mem ((c.tc : Thread nD τ).loc main_v7)
        = headProj 512 (by norm_num) (m ((c.tc : Thread nD τ).loc main_arg0)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨
      ((h c).2 main_v5 (Pipeline.mem_restRefs_of main_v5 (by decide) (by decide))).trans (HostSides.queries m c),
      ((h c).2 main_v6 (Pipeline.mem_restRefs_of main_v6 (by decide) (by decide))).trans (HostSides.keys m c),
      ((h c).2 main_v7 (Pipeline.mem_restRefs_of main_v7 (by decide) (by decide))).trans (HostSides.values m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KernelRun

end
-- ==== Proof.lean ====
/-
  A fused query / key / value projection with a head split, against its plain reference, over the extended reals.

  Both programs compute, for each of the three results, head `h`, token `n` and position `d`,

      ∑ k, x (n, k) * W (f, k) + b (f),     f = base + 64 h + d,

  the query result from the 512-row weight (base 0), the key and value results from the two halves of the 1024-row
  weight (base 0 and base 512).  The reference multiplies by each transposed weight, adds the bias, cuts the
  features into heads and moves the head axis to the front.  The kernel stacks the weights and biases, transposes,
  and on each of 32 tiles of 2048 tokens forms the fused 2048 x 1536 tile, cuts it into 24 bands of 64 columns and
  stores every band with two consecutive tokens to a row of 128 lanes; the host re-reads each result one token to a
  row.  The sums over the 512 input features are the same sums with the same factors in the same positions, so no
  law beyond the definitions is needed and the inputs' finiteness is not used; narrowing to half precision is
  the identity on extended reals.

  The modules: HeadSplit (the projection, its fused form and its two-tokens-to-a-row layout), RefHeads (the
  reference's results), TileBody / TileBlock (one grid step), Arrays (the 32 blocks tile each result array),
  HostSides (the stacked weights, the re-reading), KernelRun (the kernel's run).
-/
import proofs.«115786_j17575006175259_2_alg».proof.Defs
import proofs.«115786_j17575006175259_2_alg».proof.Proof.Gen.Kernel
import proofs.«115786_j17575006175259_2_alg».proof.Proof.Gen.Kernel.Frame
import proofs.«115786_j17575006175259_2_alg».proof.Proof.Gen.KernelIdeal
import proofs.«115786_j17575006175259_2_alg».proof.Proof.Gen.KernelIdeal.Frame
import proofs.«115786_j17575006175259_2_alg».proof.Proof.Gen.ReferenceIdeal
import proofs.«115786_j17575006175259_2_alg».proof.Proof.Gen.ReferenceIdeal.Run
import proofs.«115786_j17575006175259_2_alg».proof.Proof.Gen.ReferenceIdeal.Read
import proofs.«115786_j17575006175259_2_alg».proof.Proof.Gen.Pre_finite_inputs
import proofs.«115786_j17575006175259_2_alg».proof.Proof.RefHeads
import proofs.«115786_j17575006175259_2_alg».proof.Proof.KernelRun

noncomputable section

namespace Cert.Proof

open Idealize.ShloMosaic Idealize.SL.Sem HeadSplit

theorem frame_kernel : Cert.frame_Kernel := fun m ρ _ => Cert.Kernel.Gen.frame m ρ

theorem frame_kernelIdeal : Cert.frame_KernelIdeal := fun m ρ _ => Cert.KernelIdeal.Gen.frame m ρ

/-- The reference's run with its results forgotten. -/
theorem frame_reference : Cert.frame_ReferenceIdeal := fun m ρ _ =>
  (θ_run Cert.ReferenceIdeal.defs _ _).mono (fun _ h c => (h c).2.2.2) (Cert.ReferenceIdeal.Value.run (F := Ideal) m ρ)

/-- Both runs end with the three results at the head-split projections of the same arguments. -/
theorem algebraic : Cert.algebraic_KernelIdeal_ReferenceIdeal := by
  intro m ρ m' ρ' _ hagree
  refine ⟨_, _, _, Cert.KernelIdeal.KernelRun.run m ρ, ?_⟩
  refine (θ_run Cert.ReferenceIdeal.defs _ _).mono (fun _ h c => ?_) (Cert.ReferenceIdeal.Value.run (F := Ideal) m' ρ')
  obtain ⟨a0, a1, a2, a3, a4⟩ := hagree c
  obtain ⟨hq, hk, hv, hrest⟩ := h c
  refine ⟨?_, ?_, ?_, hrest⟩
  · rw [hq, Cert.ReferenceIdeal.Read.val_main_v6_eq, Cert.ReferenceIdeal.RefHeads.queries, a0, a1, a2]
  · rw [hk, Cert.ReferenceIdeal.Read.val_main_v15_eq, Cert.ReferenceIdeal.RefHeads.keys, a0, a3, a4]
  · rw [hv, Cert.ReferenceIdeal.Read.val_main_v18_eq, Cert.ReferenceIdeal.RefHeads.values, a0, a3, a4]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
